-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096 .f32) (main_arg3 : FVec F S1024x4096 .f32) (main_arg4 : FVec F S1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S1x4096 : Shape := ⟨2, ![1, 4096]⟩
abbrev S1x1024 : Shape := ⟨2, ![1, 1024]⟩
abbrev S2048x1024 : Shape := ⟨2, ![2048, 1024]⟩
abbrev S1024x1024 : Shape := ⟨2, ![1024, 1024]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 28
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4096x4096, .bf16⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S_, .f32⟩
  | .hbm, ⟨16, _⟩ => ⟨S1024x4096, .f32⟩
  | .hbm, ⟨17, _⟩ => ⟨S1024x4096, .i1⟩
  | .hbm, ⟨18, _⟩ => ⟨S_, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S1024x4096, .f32⟩
  | .hbm, ⟨23, _⟩ => ⟨S1024x4096, .bf16⟩
  | .hbm, ⟨24, _⟩ => ⟨S1x4096, .f32⟩
  | .hbm, ⟨25, _⟩ => ⟨S1x1024, .f32⟩
  | .hbm, ⟨26, _⟩ => ⟨S4096x4096, .bf16⟩
  | .hbm, ⟨27, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S512x4096, .bf16⟩
  | .local _ .vmem, ⟨10, _⟩ => ⟨S512x4096, .bf16⟩
  | .local _ .vmem, ⟨11, _⟩ => ⟨S1024x4096, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  bcast_S_S4096x4096 : S_.BroadcastsInDim S4096x4096 (![] : Fin 0 → Fin S4096x4096.rank)
  bcast_S_S1024x4096 : S_.BroadcastsInDim S1024x4096 (![] : Fin 0 → Fin S1024x4096.rank)
  shapeCasts_S4096_S1x4096 : S4096.ShapeCasts S1x4096
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S2048x1024_S1024x1024_S2048x1024_1_1_0_0_n_n_wf : DotDims.WF S2048x1024 S1024x1024 S2048x1024 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .bf16 = 32 ∨ (Rect.block (s := S4096x4096) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S1024x4096, .f32⟩
  | .hbm, ⟨23, _⟩ => ⟨S1024x4096, .i1⟩
  | .hbm, ⟨24, _⟩ => ⟨S_, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_cst : Ref sig .tc := ⟨.hbm, 18, rfl⟩
abbrev main_call1_v0 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S1024x4096 : S_.BroadcastsInDim S1024x4096 (![] : Fin 0 → Fin S1024x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x4096_S4096x4096_S4096x4096_1_1_0_0_n_n_wf : DotDims.WF S4096x4096 S4096x4096 S4096x4096 [1] [1] [0] [0] [] []
  dot_S4096x4096_S1024x4096_S4096x1024_1_1_0_0_n_n_wf : DotDims.WF S4096x4096 S1024x4096 S4096x1024 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf
def dot_S4096x4096_S1024x4096_S4096x1024_1_1_0_0_n_n : DotDims S4096x4096 S1024x4096 S4096x1024 where
  lhsContracting := [1]
  rhsContracting := [1]
  lhsNonContracting := [0]
  rhsNonContracting := [0]
  lhsBatch := []
  rhsBatch := []
  wf := dot_S4096x4096_S1024x4096_S4096x1024_1_1_0_0_n_n_wf

class Facts : Prop extends Facts₀ where

variable [Facts]
-- ==== Proof.Bits.HiddenCases.lean ====
/-
  The hidden layer's region (the first launch): relu(x · sign(w1)ᵀ + b1), computed tile by tile over a 2 × 4 × 4 grid
  (row tile, column tile, contraction tile). The contraction tile k is the fastest coordinate, so point t has k = t mod 4.
  The body keeps a 2048 × 1024 accumulator between points: at k = 0 it is zeroed, at every k one tile product is added,
  and only at k = 3 is the output block (accumulator + bias, clamped at zero) stored.
  This module holds what the three cases of the body share, stated at a parameter `V`, the contents of the
  TensorCore's buffers when the region is entered.
-/
import proofs.«174947_j72980084293793_2_alg».proof.Proof.Gen.Kernel.Launch
import proofs.«174947_j72980084293793_2_alg».proof.Proof.Gen.Kernel.Skeleton
import proofs.«174947_j72980084293793_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block at every point, for any proof data over `V` whose body leaves it in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the sign tile of w1. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias row's tile (fetched only when the column tile changes: in between its index has not moved). -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branches, decided over the grid -/

/-- "This is the first contraction tile" (k = 0), as the body computes it from the grid coordinates. -/
abbrev isFirst (i : grid0.Coords) : Prop := (Scalar.cmpi .ne (Scalar.extui (Scalar.cmpi .eq (BitVec.ofNat 32 (i 2).val) 0#32)) 0#32) = 1#1
/-- It holds exactly at the points t with t mod 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "This is the last contraction tile" (k = 3). -/
abbrev isLast (i : grid0.Coords) : Prop := k0_cond2 i = 1#1
/-- It holds exactly at the points t with t mod 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle: the output block is stored, and written back, only at k = 3 -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
theorem idle_out_first : ∀ t : Fin cfg0.N, isFirst (grid0.coords t) → ¬isLast (grid0.coords t) → cfg0.idle 3 (grid0.coords t) = true := by decide +kernel
theorem noFlush_out_first : ∀ t : Fin cfg0.N, isFirst (grid0.coords t) → ¬isLast (grid0.coords t) → (cfg0.win 3).flush t = false := by decide +kernel
theorem idle_out_mid : ∀ t : Fin cfg0.N, ¬isFirst (grid0.coords t) → ¬isLast (grid0.coords t) → cfg0.idle 3 (grid0.coords t) = true := by decide +kernel
theorem noFlush_out_mid : ∀ t : Fin cfg0.N, ¬isFirst (grid0.coords t) → ¬isLast (grid0.coords t) → (cfg0.win 3).flush t = false := by decide +kernel
theorem live_out_last : ∀ t : Fin cfg0.N, ¬isFirst (grid0.coords t) → isLast (grid0.coords t) → cfg0.idle 3 (grid0.coords t) = false := by decide +kernel

/-! ## The memrefs the body is called with -/

/-- One staging buffer of the output window, through which its contents are stated. -/
abbrev outView : View sig .tc .vmem S2048x1024 .bf16 := (Memref.whole cc0_stg3_0 : Memref sig .tc .vmem S2048x1024 .bf16).view
abbrev mx (t : Fin cfg0.N) : Memref sig .tc .vmem S2048x1024 .bf16 := win0_0.stage (cfg0.slots t 0)
abbrev hmx (t : Fin cfg0.N) : (mx t).IsWhole := hstage0_0 ((cfg0.slots t 0).cast nbuf0_0)
abbrev mw (t : Fin cfg0.N) : Memref sig .tc .vmem S1024x1024 .bf16 := win0_1.stage (cfg0.slots t 1)
abbrev hmw (t : Fin cfg0.N) : (mw t).IsWhole := hstage0_1 ((cfg0.slots t 1).cast nbuf0_1)
abbrev mb (t : Fin cfg0.N) : Memref sig .tc .vmem S1x1024 .f32 := win0_2.stage (cfg0.slots t 2)
abbrev hmb (t : Fin cfg0.N) : (mb t).IsWhole := hstage0_2 ((cfg0.slots t 2).cast nbuf0_2)
abbrev mo (t : Fin cfg0.N) : Memref sig .tc .vmem S2048x1024 .bf16 := win0_3.stage (cfg0.slots t 3)
abbrev hmo (t : Fin cfg0.N) : (mo t).IsWhole := hstage0_3 ((cfg0.slots t 3).cast nbuf0_3)
/-- The accumulator: a whole scoped buffer of the kernel's own. -/
abbrev acc : Memref sig .tc .vmem S2048x1024 .f32 := Memref.whole cc0_scratch0
abbrev accView : View sig .tc .vmem S2048x1024 .f32 := acc.view

/-- The scoped buffers that are neither a staging buffer of this region nor the accumulator (the second launch's staging
    buffers), each whole at some contents: this region never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents. -/
theorem PhiA_eq (c : Dev nD) :
    (Pipeline.ΦA spec0 c : sProp 𝕄)
      = iprop(iprop((∃ d, owns (c : Thread nD τ) acc fullShare d) ∗ others c) ∗ (∃ r, prngReg c r)) := by
  unfold Pipeline.ΦA; rw [scopedRest0_eq]; simp only [acc, owns_whole, others]; try rfl

end Cert.Kernel.Hidden

end
-- ==== Proof.Bits.HiddenFirst.lean ====
/-
  The hidden layer's body run whole in the case of the first contraction tile (k = 0): the accumulator, whatever it held, is zeroed and the tile product x_tile · s_tileᵀ added to it; the output block is not touched.
  The run is stated on any whole staging memrefs; what the accumulator (and the output block) end with is the list of
  pieces the body's stores leave, last first, found while the body is run.
-/
import proofs.«174947_j72980084293793_2_alg».proof.Proof.Bits.HiddenCases

set_option maxRecDepth 16384

noncomputable section

namespace Cert.Kernel.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block (`L3`) and in the accumulator (`LS`) in this case, with the
    body's run: from the three input tiles at their contents, the output block at contents handed back untouched and the accumulator
    at anything, to the same inputs, the same output block and the accumulator with `LS` written. -/
noncomputable def runFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hidden

end
-- ==== Proof.Bits.HiddenMid.lean ====
/-
  The hidden layer's body run whole in the case of a middle contraction tile (k = 1, 2): the tile product is added to what the accumulator held; the output block is not touched.
  The run is stated on any whole staging memrefs; what the accumulator (and the output block) end with is the list of
  pieces the body's stores leave, last first, found while the body is run.
-/
import proofs.«174947_j72980084293793_2_alg».proof.Proof.Bits.HiddenFirst

set_option maxRecDepth 16384

noncomputable section

namespace Cert.Kernel.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block (`L3`) and in the accumulator (`LS`) in this case, with the
    body's run: from the three input tiles at their contents, the output block at contents handed back untouched and the accumulator
    at what the point before left (`xs`), to the same inputs, the same output block and the accumulator with `LS` written. -/
noncomputable def runMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hidden

end
-- ==== Proof.Bits.HiddenLast.lean ====
/-
  The hidden layer's body run whole in the case of the last contraction tile (k = 3): the tile product is added to the accumulator, and the output block is stored: accumulator + bias row, clamped below at zero.
  The run is stated on any whole staging memrefs; what the accumulator (and the output block) end with is the list of
  pieces the body's stores leave, last first, found while the body is run.
-/
import proofs.«174947_j72980084293793_2_alg».proof.Proof.Bits.HiddenMid

set_option maxRecDepth 16384

noncomputable section

namespace Cert.Kernel.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block (`L3`) and in the accumulator (`LS`) in this case, with the
    body's run: from the three input tiles at their contents, the output block at anything and the accumulator
    at what the point before left (`xs`), to the same inputs, the output block with `L3` written and the accumulator with `LS` written. -/
noncomputable def runLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hidden

end
-- ==== Proof.Bits.HiddenFrame.lean ====
/-
  The hidden layer's region, point by point. After the body at point t the accumulator holds: at k = 0 the first tile
  product (added to zero), at k > 0 what the point before left plus this point's tile product; the output block is
  stored at k = 3 only, from the accumulator. `outsAt` states this by recursion on the point; the region's invariant
  hands the body the accumulator at what the point before left and takes it back at this point's contents.
  Stated at a parameter `V`, the buffers' contents when the region is entered.
-/
import proofs.«174947_j72980084293793_2_alg».proof.Proof.Bits.HiddenLast

set_option maxRecDepth 16384

noncomputable section

namespace Cert.Kernel.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- At the first tile the body stores nothing into the output block: a placeholder that nothing consults (the window is
    neither written back there nor read at the next point). -/
def outFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) : Vec F S2048x1024 .bf16 :=
  outView.read (Elt F) (outView.writes (Elt F) outView.junk (runFirst c i arg3 harg3 arg4 harg4 arg5 harg5 arg6 harg6 arg7 harg7 hc0 hc1 x0 x1 x2).1)

/-- The first tile's stores cover the accumulator. -/
theorem cover_accFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) (y : S2048x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S2048x1024.size (by sl_kernel_rfl) y

/-- What the first tile leaves in the accumulator. -/
def accFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) : Vec F S2048x1024 .f32 :=
  accView.read (Elt F) (accView.writes (Elt F) accView.junk (runFirst c i arg3 harg3 arg4 harg4 arg5 harg5 arg6 harg6 arg7 harg7 hc0 hc1 x0 x1 x2).2.1)

/-- A middle tile stores nothing into the output block either. -/
def outMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) : Vec F S2048x1024 .bf16 :=
  outView.read (Elt F) (outView.writes (Elt F) outView.junk (runMid c i arg3 harg3 arg4 harg4 arg5 harg5 arg6 harg6 arg7 harg7 hc0 hc1 x0 x1 x2 xs).1)

theorem cover_accMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) (y : S2048x1024.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S2048x1024.size (by sl_kernel_rfl) y

/-- What a middle tile leaves in the accumulator. -/
def accMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) : Vec F S2048x1024 .f32 :=
  accView.read (Elt F) (accView.writes (Elt F) accView.junk (runMid c i arg3 harg3 arg4 harg4 arg5 harg5 arg6 harg6 arg7 harg7 hc0 hc1 x0 x1 x2 xs).2.1)

/-- The last tile's one store covers the output block. -/
theorem cover_outLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) (y : S2048x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S2048x1024.size (by sl_kernel_rfl) y

/-- What the last tile leaves in the output block. -/
def outLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) : Vec F S2048x1024 .bf16 :=
  outView.read (Elt F) (outView.writes (Elt F) outView.junk (runLast c i arg3 harg3 arg4 harg4 arg5 harg5 arg6 harg6 arg7 harg7 hc0 hc1 x0 x1 x2 xs).1)

theorem cover_accLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) (y : S2048x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S2048x1024.size (by sl_kernel_rfl) y

/-- What the last tile leaves in the accumulator. -/
def accLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) : Vec F S2048x1024 .f32 :=
  accView.read (Elt F) (accView.writes (Elt F) accView.junk (runLast c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation, point by point -/

/-- What the output block's staging buffer and the accumulator hold after the body at position `n`: the case that
    `n mod 4` selects, run on the point's input blocks, the accumulator taken from what position `n - 1` left. -/
def outsAt (c : Dev nD) : (n : ℕ) → n < cfg0.N → Vec F S2048x1024 .bf16 × Vec F S2048x1024 .f32
  | 0, hn => (outFirst c (grid0.coords ⟨0, hn⟩) (mx ⟨0, hn⟩) (hmx ⟨0, hn⟩) (mw ⟨0, hn⟩) (hmw ⟨0, hn⟩) (mb ⟨0, hn⟩) (hmb ⟨0, hn⟩) (mo ⟨0, hn⟩) (hmo ⟨0, hn⟩) acc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩), accFirst c (grid0.coords ⟨0, hn⟩) (mx ⟨0, hn⟩) (hmx ⟨0, hn⟩) (mw ⟨0, hn⟩) (hmw ⟨0, hn⟩) (mb ⟨0, hn⟩) (hmb ⟨0, hn⟩) (mo ⟨0, hn⟩) (hmo ⟨0, hn⟩) acc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outFirst c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩), accFirst c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 4 = 3 then
        (outLast c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2, accLast c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2, accMid c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_first (c : Dev nD) (t : Fin cfg0.N) (h0 : t.val % 4 = 0) (h1 : ¬t.val % 4 = 3) :
    outsAt V c t.val t.isLt = (outFirst c (grid0.coords t) (mx t) (hmx t) (mw t) (hmw t) (mb t) (hmb t) (mo t) (hmo t) acc (Memref.isWhole_whole _) ((isFirst_iff t).mpr h0) (fun h => h1 ((isLast_iff t).mp h)) (iblk V c 0 t) (iblk V c 1 t) (iblk V c 2 t), accFirst c (grid0.coords t) (mx t) (hmx t) (mw t) (hmw t) (mb t) (hmb t) (mo t) (hmo t) acc (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt V c t.val t.isLt = (outMid c (grid0.coords t) (mx t) (hmx t) (mw t) (hmw t) (mb t) (hmb t) (mo t) (hmo t) acc (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2, accMid c (grid0.coords t) (mx t) (hmx t) (mw t) (hmw t) (mb t) (hmb t) (mo t) (hmo t) acc (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt V c t.val t.isLt = (outLast c (grid0.coords t) (mx t) (hmx t) (mw t) (hmw t) (mb t) (hmb t) (mo t) (hmo t) acc (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2, accLast c (grid0.coords t) (mx t) (hmx t) (mw t) (hmw t) (mb t) (hmb t) (mo t) (hmo t) acc (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried between points -/

/-- Before position `n`: before the first point the class's invariant (every scoped buffer at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) acc fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) acc fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) acc fullShare ((outsAt V c (n - 1) (by omega)).2) ∗ others c) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) : (dat V c).after 3 t = (outsAt V c t.val t.isLt).1 := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the input buffers hold their blocks; `t mod 4` says which case the point is in; the
    invariant hands over the accumulator at what the point before left (at anything at the very first point) and takes
    it back at this point's contents, by the case's cover; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dat V c).leavesExact 0 t = owns (c : Thread nD τ) (mx t) fullShare ((dat V c).after 0 t) from by
        unfold Dat.leavesExact; rw [live_x t], after_x]
      rw [show (dat V c).leavesExact 1 t = owns (c : Thread nD τ) (mw t) fullShare ((dat V c).after 1 t) from by
        unfold Dat.leavesExact; rw [live_w t], after_w]
      rw [show (dat V c).leavesExact 2 t = owns (c : Thread nD τ) (mb t) fullShare ((dat V c).after 2 t) from by
        unfold Dat.leavesExact; rw [live_b t], after_b]
      rw [Dat.leavesExact_idle (dat V c) 3 t (idle_out_first t ((isFirst_iff t).mpr h0) (fun h => h1 ((isLast_iff t).mp h))) (noFlush_out_first t ((isFirst_iff t).mpr h0) (fun h => h1 ((isLast_iff t).mp h)))]
      rw [outsAt_first V c t h0 h1]
      unfold accFirst; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((runFirst c (grid0.coords t) _ _ _ _ _ _ _ _ _ _ ((isFirst_iff t).mpr h0) (fun h => h1 ((isLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accFirst c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((runFirst c (grid0.coords t) _ _ _ _ _ _ _ _ _ _ ((isFirst_iff t).mpr h0) (fun h => h1 ((isLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accFirst c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat V c).leavesExact 0 t = owns (c : Thread nD τ) (mx t) fullShare ((dat V c).after 0 t) from by
        unfold Dat.leavesExact; rw [live_x t], after_x]
      rw [show (dat V c).leavesExact 1 t = owns (c : Thread nD τ) (mw t) fullShare ((dat V c).after 1 t) from by
        unfold Dat.leavesExact; rw [live_w t], after_w]
      rw [show (dat V c).leavesExact 2 t = owns (c : Thread nD τ) (mb t) fullShare ((dat V c).after 2 t) from by
        unfold Dat.leavesExact; rw [live_b t], after_b]
      rw [show (dat V c).leavesExact 3 t = owns (c : Thread nD τ) (mo t) fullShare ((dat V c).after 3 t) from by
        unfold Dat.leavesExact; rw [live_out_last t (fun h => h0 ((isFirst_iff t).mp h)) ((isLast_iff t).mpr h1)], after_out]
      rw [outsAt_last V c t h0 h1]
      unfold outLast accLast; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((runLast c (grid0.coords t) _ _ _ _ _ _ _ _ _ _ (fun h => h0 ((isFirst_iff t).mp h)) ((isLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accLast c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_outLast c _ _ _ _ _ _ _ _ _ _ _ _ _ _ _ _ _)
    · rw [show (dat V c).leavesExact 0 t = owns (c : Thread nD τ) (mx t) fullShare ((dat V c).after 0 t) from by
        unfold Dat.leavesExact; rw [live_x t], after_x]
      rw [show (dat V c).leavesExact 1 t = owns (c : Thread nD τ) (mw t) fullShare ((dat V c).after 1 t) from by
        unfold Dat.leavesExact; rw [live_w t], after_w]
      rw [show (dat V c).leavesExact 2 t = owns (c : Thread nD τ) (mb t) fullShare ((dat V c).after 2 t) from by
        unfold Dat.leavesExact; rw [live_b t], after_b]
      rw [Dat.leavesExact_idle (dat V c) 3 t (idle_out_mid t (fun h => h0 ((isFirst_iff t).mp h)) (fun h => h1 ((isLast_iff t).mp h))) (noFlush_out_mid t (fun h => h0 ((isFirst_iff t).mp h)) (fun h => h1 ((isLast_iff t).mp h)))]
      rw [outsAt_mid V c t h0 h1]
      unfold accMid; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((runMid c (grid0.coords t) _ _ _ _ _ _ _ _ _ _ (fun h => h0 ((isFirst_iff t).mp h)) (fun h => h1 ((isLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accMid c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨⟨HS0, Hrest⟩, Hg⟩
  isplitl [HS0 Hrest]
  · isplitl [HS0]
    · iexists _; iexact HS0
    iexact Hrest
  iexact Hg

end

end Cert.Kernel.Hidden

end
-- ==== Proof.Bits.OutputFrame.lean ====
/-
  The output layer's region (the second launch): h · sign(w2)ᵀ + b2 over a grid of 8 row tiles of 512 rows. The whole
  contraction (4096 terms) happens in one product per point; the body reads the row tile of h, the whole sign matrix
  of w2 and the bias row, and stores its 512 × 1024 block once. No state is kept between points.
  Stated at a parameter `V`, the buffers' contents when the region is entered.
-/
import proofs.«174947_j72980084293793_2_alg».proof.Proof.Gen.Kernel.Launch
import proofs.«174947_j72980084293793_2_alg».proof.Proof.Gen.Kernel.Skeleton
import proofs.«174947_j72980084293793_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Output

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of h is in its staging buffer at every point. -/
theorem before_h_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The sign matrix of w2, fetched once, stays in its one staging buffer. -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- So does the bias row. -/
theorem before_b_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The body's accesses: every load and the one store take the whole block -/

abbrev rH : Rect S512x4096 := Rect.unit (s := S512x4096) ![0, 0] S512x4096.size inb_S512x4096_S512x4096_0_0
abbrev rW : Rect S1024x4096 := Rect.unit (s := S1024x4096) ![0, 0] S1024x4096.size inb_S1024x4096_S1024x4096_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- What the body leaves in the output block's staging buffer, from the three input blocks: its one store. -/
def outBlock (x0 : Vec F S512x4096 .bf16) (x1 : Vec F S1024x4096 .bf16) (x2 : Vec F S1x1024 .f32) : Vec F S512x1024 .f32 :=
  View.canon [⟨rO, k1_pay1 (View.ld x0 rH) (View.ld x1 rW) (View.ld x2 rB)⟩]

/-- The one store covers the block. -/
theorem cover_out (p0 : Vec F S512x1024 .f32) (y : S512x1024.Idx) :
    ∃ pc ∈ ([⟨rO, p0⟩] : List (View.Piece (Elt F) S512x1024 .f32)), y ∈ pc.1.set :=
  View.cover_of_tiled [⟨rO, p0⟩] S512x1024.size (by rfl) y

set_option maxHeartbeats 2000000 in
/-- The body on whole staging memrefs: the inputs' at their contents, the output's at anything, to the inputs as they
    were and the output at `outBlock` of the inputs. -/
theorem sound_kernel (c : Dev nD) (E : Set ℕ) (i : grid1.Coords) (arg1 : Memref sig .tc .vmem S512x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .f32) (harg4 : arg4.IsWhole)
    (x0 : Vec F S512x4096 .bf16) (x1 : Vec F S1024x4096 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc1__fc2_kernel i arg1 harg1 arg2 harg2 arg3 harg3 arg4 harg4) K := by
  simp only [cc1__fc2_kernel_eq_skeleton]; unfold cc1__fc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

section
variable (V : (c : Dev nD) → (b : Ref sig .tc) → Buf (Elt F) ((c : Thread nD τ).loc b))

/-! ## The pipeline's proof data -/

/-- The arrays as the region finds them; after the body each input's buffer at its block and the output's at
    `outBlock` of the input blocks; the class's invariant (nothing kept between points); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlock (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_h (c : Dev nD) (t : Fin cfg1.N) : (dat V c).after 0 t = iblk V c 0 t := by dsimp only [dat]
theorem after_w (c : Dev nD) (t : Fin cfg1.N) : (dat V c).after 1 t = iblk V c 1 t := by dsimp only [dat]
theorem after_b (c : Dev nD) (t : Fin cfg1.N) : (dat V c).after 2 t = iblk V c 2 t := by dsimp only [dat]
theorem after_out (c : Dev nD) (t : Fin cfg1.N) : (dat V c).after 3 t = outBlock (iblk V c 0 t) (iblk V c 1 t) (iblk V c 2 t) := by dsimp only [dat]

theorem before_h (c : Dev nD) (t : Fin cfg1.N) (d) : (dat V c).before 0 t d = iblk V c 0 t :=
  before_h_of V (dat V c) (A_eq V c 0) (after_h V c) t d
theorem before_w (c : Dev nD) (t : Fin cfg1.N) (d) : (dat V c).before 1 t d = iblk V c 1 t :=
  before_w_of V (dat V c) (A_eq V c 1) (after_w V c) t d
theorem before_b (c : Dev nD) (t : Fin cfg1.N) (d) : (dat V c).before 2 t d = iblk V c 2 t :=
  before_b_of V (dat V c) (A_eq V c 2) (after_b V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_w, before_b]
  rw [show (dat V c).Φ t.succ = (dat V c).Φ t.castSucc from rfl,
    show (dat V c).owesAt () t.succ = (dat V c).owesAt () t.castSucc from rfl,
    after_h, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end

end Cert.Kernel.Output

end
-- ==== Proof.Bits.Run.lean ====
/-
  The whole program as a run: five stretches of host operations (the casts, the two sign matrices, the two bias rows
  reshaped), the hidden layer's launch, the output layer's launch. Between two items every unscoped buffer of the core
  is held at that boundary's contents: the launch memory, then each stretch's operations applied, then at a launch's exit
  its arrays at what its write-backs leave and everything else as entered. The hidden layer's launch enters and leaves
  through the class invariant (its accumulator at anything), keeping the accumulator's contents named only in between.
  The run ends with every unscoped buffer read at the last boundary's contents — the arguments as launched, the result
  array at what the output layer's write-backs leave.
-/
import proofs.«174947_j72980084293793_2_alg».proof.Proof.Bits.HiddenFrame
import proofs.«174947_j72980084293793_2_alg».proof.Proof.Bits.OutputFrame
import proofs.«174947_j72980084293793_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two launches' boundaries -/

/-- The hidden layer's launch is entered after the five host stretches. -/
abbrev E5 : (c : Dev nD) → (b : Ref sig .tc) → Buf (Elt F) ((c : Thread nD τ).loc b) := fun c b => Gen.V5 m c b

/-- At its exit: its arrays at what the pipeline leaves, every other buffer as entered. -/
def W6 (c : Dev nD) : Valuation τ sig (Elt F) :=
  Pipeline.withArrays spec0 c (Gen.V5 m c) fun w => (Hidden.dat (E5 m) c).arrAt w cfg0.N
theorem W6_arr (c : Dev nD) (w : Fin cfg0.W) :
    W6 m c (Proc.devRef .tc (Pipeline.arrRef spec0 w)) = (Hidden.dat (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = Gen.V5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (Hidden.dat (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- At the output layer's exit (the program's end): the same, over what the hidden layer's launch left. -/
def W7 (c : Dev nD) : Valuation τ sig (Elt F) :=
  Pipeline.withArrays spec1 c (W6 m c) fun w => (Output.dat (E6 m) c).arrAt w cfg1.N
theorem W7_arr (c : Dev nD) (w : Fin cfg1.W) :
    W7 m c (Proc.devRef .tc (Pipeline.arrRef spec1 w)) = (Output.dat (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (Output.dat (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-! ### No item writes an argument: at the end each holds its launch contents -/

theorem W7_main_arg0 (c : Dev nD) : W7 m c (Proc.devRef .tc main_arg0) = m ((c : Thread nD τ).loc main_arg0) :=
  (W7_of_ne m c main_arg0 (by decide)).trans <| (W6_of_ne m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W7_main_arg1 (c : Dev nD) : W7 m c (Proc.devRef .tc main_arg1) = m ((c : Thread nD τ).loc main_arg1) :=
  (W7_of_ne m c main_arg1 (by decide)).trans <| (W6_of_ne m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W7_main_arg2 (c : Dev nD) : W7 m c (Proc.devRef .tc main_arg2) = m ((c : Thread nD τ).loc main_arg2) :=
  (W7_of_ne m c main_arg2 (by decide)).trans <| (W6_of_ne m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W7_main_arg3 (c : Dev nD) : W7 m c (Proc.devRef .tc main_arg3) = m ((c : Thread nD τ).loc main_arg3) :=
  (W7_of_ne m c main_arg3 (by decide)).trans <| (W6_of_ne m c main_arg3 (by decide)).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W7_main_arg4 (c : Dev nD) : W7 m c (Proc.devRef .tc main_arg4) = m ((c : Thread nD τ).loc main_arg4) :=
  (W7_of_ne m c main_arg4 (by decide)).trans <| (W6_of_ne m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl

/-! ## The proof data family and the thread state -/

/-- Each launch's proof data at its entry contents. -/
def pdats : (p : Fin 2) → (c : Dev nD) → Dat τ (Elt F) Unit ℕ (UR sig nD τ) ℕ (Pipeline.pin (pcfgs (F := F)) adm p) c
  | ⟨0, _⟩ => fun c => Hidden.dat (E5 m) c
  | ⟨1, _⟩ => fun c => Output.dat (E6 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The two launches as segments -/

set_option backward.isDefEq.respectTransparency.types false in
/-- The hidden layer's launch: its arrays split out of the unscoped buffers and put back at the exit contents; the
    generator register and the scoped buffers into the invariant before the first point (the class's) and, after the
    last point, out of the invariant that names the accumulator's contents, which are then forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hidden.body_obligation (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hidden.hin (E5 m) c)
    unfold Pipeline.ΦA
    iintro ⟨Hp, -, Hr⟩
    isplitl [Hr]; · iexact Hr
    iexact Hp
  hout c := by
    rw [Pipeline.ownSems0_none]
    refine (Hidden.hout (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output layer's launch, the same way; it keeps nothing between points, so its invariant is the class's throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Output.body_obligation (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m) ]

set_option backward.isDefEq.respectTransparency.types false in
/-- THE RUN. From any memory with zero counters every weakly fair execution of the program terminates, nothing
    faulting, and every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run m ρ)

end Cert.Kernel.Run

end
-- ==== Proof.Ideal.HiddenCases.lean ====
/-
  The hidden layer's region (the first launch): relu(x · sign(w1)ᵀ + b1), computed tile by tile over a 2 × 4 × 4 grid
  (row tile, column tile, contraction tile). The contraction tile k is the fastest coordinate, so point t has k = t mod 4.
  The body keeps a 2048 × 1024 accumulator between points: at k = 0 it is zeroed, at every k one tile product is added,
  and only at k = 3 is the output block (accumulator + bias, clamped at zero) stored.
  This module holds what the three cases of the body share, stated at a parameter `V`, the contents of the
  TensorCore's buffers when the region is entered.
-/
import proofs.«174947_j72980084293793_2_alg».proof.Proof.Gen.KernelIdeal.Launch
import proofs.«174947_j72980084293793_2_alg».proof.Proof.Gen.KernelIdeal.Skeleton
import proofs.«174947_j72980084293793_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block at every point, for any proof data over `V` whose body leaves it in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the sign tile of w1. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias row's tile (fetched only when the column tile changes: in between its index has not moved). -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branches, decided over the grid -/

/-- "This is the first contraction tile" (k = 0), as the body computes it from the grid coordinates. -/
abbrev isFirst (i : grid0.Coords) : Prop := (Scalar.cmpi .ne (Scalar.extui (Scalar.cmpi .eq (BitVec.ofNat 32 (i 2).val) 0#32)) 0#32) = 1#1
/-- It holds exactly at the points t with t mod 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "This is the last contraction tile" (k = 3). -/
abbrev isLast (i : grid0.Coords) : Prop := k0_cond2 i = 1#1
/-- It holds exactly at the points t with t mod 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle: the output block is stored, and written back, only at k = 3 -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
theorem idle_out_first : ∀ t : Fin cfg0.N, isFirst (grid0.coords t) → ¬isLast (grid0.coords t) → cfg0.idle 3 (grid0.coords t) = true := by decide +kernel
theorem noFlush_out_first : ∀ t : Fin cfg0.N, isFirst (grid0.coords t) → ¬isLast (grid0.coords t) → (cfg0.win 3).flush t = false := by decide +kernel
theorem idle_out_mid : ∀ t : Fin cfg0.N, ¬isFirst (grid0.coords t) → ¬isLast (grid0.coords t) → cfg0.idle 3 (grid0.coords t) = true := by decide +kernel
theorem noFlush_out_mid : ∀ t : Fin cfg0.N, ¬isFirst (grid0.coords t) → ¬isLast (grid0.coords t) → (cfg0.win 3).flush t = false := by decide +kernel
theorem live_out_last : ∀ t : Fin cfg0.N, ¬isFirst (grid0.coords t) → isLast (grid0.coords t) → cfg0.idle 3 (grid0.coords t) = false := by decide +kernel

/-! ## The memrefs the body is called with -/

/-- One staging buffer of the output window, through which its contents are stated. -/
abbrev outView : View sig .tc .vmem S2048x1024 .bf16 := (Memref.whole cc0_stg3_0 : Memref sig .tc .vmem S2048x1024 .bf16).view
abbrev mx (t : Fin cfg0.N) : Memref sig .tc .vmem S2048x1024 .bf16 := win0_0.stage (cfg0.slots t 0)
abbrev hmx (t : Fin cfg0.N) : (mx t).IsWhole := hstage0_0 ((cfg0.slots t 0).cast nbuf0_0)
abbrev mw (t : Fin cfg0.N) : Memref sig .tc .vmem S1024x1024 .bf16 := win0_1.stage (cfg0.slots t 1)
abbrev hmw (t : Fin cfg0.N) : (mw t).IsWhole := hstage0_1 ((cfg0.slots t 1).cast nbuf0_1)
abbrev mb (t : Fin cfg0.N) : Memref sig .tc .vmem S1x1024 .f32 := win0_2.stage (cfg0.slots t 2)
abbrev hmb (t : Fin cfg0.N) : (mb t).IsWhole := hstage0_2 ((cfg0.slots t 2).cast nbuf0_2)
abbrev mo (t : Fin cfg0.N) : Memref sig .tc .vmem S2048x1024 .bf16 := win0_3.stage (cfg0.slots t 3)
abbrev hmo (t : Fin cfg0.N) : (mo t).IsWhole := hstage0_3 ((cfg0.slots t 3).cast nbuf0_3)
/-- The accumulator: a whole scoped buffer of the kernel's own. -/
abbrev acc : Memref sig .tc .vmem S2048x1024 .f32 := Memref.whole cc0_scratch0
abbrev accView : View sig .tc .vmem S2048x1024 .f32 := acc.view

/-- The scoped buffers that are neither a staging buffer of this region nor the accumulator (the second launch's staging
    buffers), each whole at some contents: this region never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents. -/
theorem PhiA_eq (c : Dev nD) :
    (Pipeline.ΦA spec0 c : sProp 𝕄)
      = iprop(iprop((∃ d, owns (c : Thread nD τ) acc fullShare d) ∗ others c) ∗ (∃ r, prngReg c r)) := by
  unfold Pipeline.ΦA; rw [scopedRest0_eq]; simp only [acc, owns_whole, others]; try rfl

end Cert.KernelIdeal.Hidden

end
-- ==== Proof.Ideal.HiddenFirst.lean ====
/-
  The hidden layer's body run whole in the case of the first contraction tile (k = 0): the accumulator, whatever it held, is zeroed and the tile product x_tile · s_tileᵀ added to it; the output block is not touched.
  The run is stated on any whole staging memrefs; what the accumulator (and the output block) end with is the list of
  pieces the body's stores leave, last first, found while the body is run.
-/
import proofs.«174947_j72980084293793_2_alg».proof.Proof.Ideal.HiddenCases

set_option maxRecDepth 16384

noncomputable section

namespace Cert.KernelIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block (`L3`) and in the accumulator (`LS`) in this case, with the
    body's run: from the three input tiles at their contents, the output block at contents handed back untouched and the accumulator
    at anything, to the same inputs, the same output block and the accumulator with `LS` written. -/
noncomputable def runFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hidden

end
-- ==== Proof.Ideal.HiddenMid.lean ====
/-
  The hidden layer's body run whole in the case of a middle contraction tile (k = 1, 2): the tile product is added to what the accumulator held; the output block is not touched.
  The run is stated on any whole staging memrefs; what the accumulator (and the output block) end with is the list of
  pieces the body's stores leave, last first, found while the body is run.
-/
import proofs.«174947_j72980084293793_2_alg».proof.Proof.Ideal.HiddenFirst

set_option maxRecDepth 16384

noncomputable section

namespace Cert.KernelIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block (`L3`) and in the accumulator (`LS`) in this case, with the
    body's run: from the three input tiles at their contents, the output block at contents handed back untouched and the accumulator
    at what the point before left (`xs`), to the same inputs, the same output block and the accumulator with `LS` written. -/
noncomputable def runMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨[], ?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hidden

end
-- ==== Proof.Ideal.HiddenLast.lean ====
/-
  The hidden layer's body run whole in the case of the last contraction tile (k = 3): the tile product is added to the accumulator, and the output block is stored: accumulator + bias row, clamped below at zero.
  The run is stated on any whole staging memrefs; what the accumulator (and the output block) end with is the list of
  pieces the body's stores leave, last first, found while the body is run.
-/
import proofs.«174947_j72980084293793_2_alg».proof.Proof.Ideal.HiddenMid

set_option maxRecDepth 16384

noncomputable section

namespace Cert.KernelIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block (`L3`) and in the accumulator (`LS`) in this case, with the
    body's run: from the three input tiles at their contents, the output block at anything and the accumulator
    at what the point before left (`xs`), to the same inputs, the output block with `L3` written and the accumulator with `LS` written. -/
noncomputable def runLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__fc1_kernel i arg3 harg3 arg4 harg4 arg5 harg5 arg6 harg6 arg7 harg7) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hidden

end
-- ==== Proof.Ideal.HiddenFrame.lean ====
/-
  The hidden layer's region, point by point. After the body at point t the accumulator holds: at k = 0 the first tile
  product (added to zero), at k > 0 what the point before left plus this point's tile product; the output block is
  stored at k = 3 only, from the accumulator. `outsAt` states this by recursion on the point; the region's invariant
  hands the body the accumulator at what the point before left and takes it back at this point's contents.
  Stated at a parameter `V`, the buffers' contents when the region is entered.
-/
import proofs.«174947_j72980084293793_2_alg».proof.Proof.Ideal.HiddenLast

set_option maxRecDepth 16384

noncomputable section

namespace Cert.KernelIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- At the first tile the body stores nothing into the output block: a placeholder that nothing consults (the window is
    neither written back there nor read at the next point). -/
def outFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) : Vec F S2048x1024 .bf16 :=
  outView.read (Elt F) (outView.writes (Elt F) outView.junk (runFirst c i arg3 harg3 arg4 harg4 arg5 harg5 arg6 harg6 arg7 harg7 hc0 hc1 x0 x1 x2).1)

/-- The first tile's stores cover the accumulator. -/
theorem cover_accFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) (y : S2048x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S2048x1024.size (by sl_kernel_rfl) y

/-- What the first tile leaves in the accumulator. -/
def accFirst (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) : Vec F S2048x1024 .f32 :=
  accView.read (Elt F) (accView.writes (Elt F) accView.junk (runFirst c i arg3 harg3 arg4 harg4 arg5 harg5 arg6 harg6 arg7 harg7 hc0 hc1 x0 x1 x2).2.1)

/-- A middle tile stores nothing into the output block either. -/
def outMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) : Vec F S2048x1024 .bf16 :=
  outView.read (Elt F) (outView.writes (Elt F) outView.junk (runMid c i arg3 harg3 arg4 harg4 arg5 harg5 arg6 harg6 arg7 harg7 hc0 hc1 x0 x1 x2 xs).1)

theorem cover_accMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) (y : S2048x1024.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S2048x1024.size (by sl_kernel_rfl) y

/-- What a middle tile leaves in the accumulator. -/
def accMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) : Vec F S2048x1024 .f32 :=
  accView.read (Elt F) (accView.writes (Elt F) accView.junk (runMid c i arg3 harg3 arg4 harg4 arg5 harg5 arg6 harg6 arg7 harg7 hc0 hc1 x0 x1 x2 xs).2.1)

/-- The last tile's one store covers the output block. -/
theorem cover_outLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) (y : S2048x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S2048x1024.size (by sl_kernel_rfl) y

/-- What the last tile leaves in the output block. -/
def outLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) : Vec F S2048x1024 .bf16 :=
  outView.read (Elt F) (outView.writes (Elt F) outView.junk (runLast c i arg3 harg3 arg4 harg4 arg5 harg5 arg6 harg6 arg7 harg7 hc0 hc1 x0 x1 x2 xs).1)

theorem cover_accLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) (y : S2048x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S2048x1024.size (by sl_kernel_rfl) y

/-- What the last tile leaves in the accumulator. -/
def accLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) : Vec F S2048x1024 .f32 :=
  accView.read (Elt F) (accView.writes (Elt F) accView.junk (runLast c i arg3 harg3 arg4 harg4 arg5 harg5 arg6 harg6 arg7 harg7 hc0 hc1 x0 x1 x2 xs).2.1)

section
variable (V : (c : Dev nD) → (b : Ref sig .tc) → Buf (Elt F) ((c : Thread nD τ).loc b))

/-! ## The accumulation, point by point -/

/-- What the output block's staging buffer and the accumulator hold after the body at position `n`: the case that
    `n mod 4` selects, run on the point's input blocks, the accumulator taken from what position `n - 1` left. -/
def outsAt (c : Dev nD) : (n : ℕ) → n < cfg0.N → Vec F S2048x1024 .bf16 × Vec F S2048x1024 .f32
  | 0, hn => (outFirst c (grid0.coords ⟨0, hn⟩) (mx ⟨0, hn⟩) (hmx ⟨0, hn⟩) (mw ⟨0, hn⟩) (hmw ⟨0, hn⟩) (mb ⟨0, hn⟩) (hmb ⟨0, hn⟩) (mo ⟨0, hn⟩) (hmo ⟨0, hn⟩) acc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩), accFirst c (grid0.coords ⟨0, hn⟩) (mx ⟨0, hn⟩) (hmx ⟨0, hn⟩) (mw ⟨0, hn⟩) (hmw ⟨0, hn⟩) (mb ⟨0, hn⟩) (hmb ⟨0, hn⟩) (mo ⟨0, hn⟩) (hmo ⟨0, hn⟩) acc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outFirst c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩), accFirst c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 4 = 3 then
        (outLast c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2, accLast c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2, accMid c (grid0.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) acc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_first (c : Dev nD) (t : Fin cfg0.N) (h0 : t.val % 4 = 0) (h1 : ¬t.val % 4 = 3) :
    outsAt V c t.val t.isLt = (outFirst c (grid0.coords t) (mx t) (hmx t) (mw t) (hmw t) (mb t) (hmb t) (mo t) (hmo t) acc (Memref.isWhole_whole _) ((isFirst_iff t).mpr h0) (fun h => h1 ((isLast_iff t).mp h)) (iblk V c 0 t) (iblk V c 1 t) (iblk V c 2 t), accFirst c (grid0.coords t) (mx t) (hmx t) (mw t) (hmw t) (mb t) (hmb t) (mo t) (hmo t) acc (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt V c t.val t.isLt = (outMid c (grid0.coords t) (mx t) (hmx t) (mw t) (hmw t) (mb t) (hmb t) (mo t) (hmo t) acc (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2, accMid c (grid0.coords t) (mx t) (hmx t) (mw t) (hmw t) (mb t) (hmb t) (mo t) (hmo t) acc (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt V c t.val t.isLt = (outLast c (grid0.coords t) (mx t) (hmx t) (mw t) (hmw t) (mb t) (hmb t) (mo t) (hmo t) acc (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2, accLast c (grid0.coords t) (mx t) (hmx t) (mw t) (hmw t) (mb t) (hmb t) (mo t) (hmo t) acc (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried between points -/

/-- Before position `n`: before the first point the class's invariant (every scoped buffer at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) acc fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) acc fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) acc fullShare ((outsAt V c (n - 1) (by omega)).2) ∗ others c) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) : (dat V c).after 3 t = (outsAt V c t.val t.isLt).1 := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the input buffers hold their blocks; `t mod 4` says which case the point is in; the
    invariant hands over the accumulator at what the point before left (at anything at the very first point) and takes
    it back at this point's contents, by the case's cover; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dat V c).leavesExact 0 t = owns (c : Thread nD τ) (mx t) fullShare ((dat V c).after 0 t) from by
        unfold Dat.leavesExact; rw [live_x t], after_x]
      rw [show (dat V c).leavesExact 1 t = owns (c : Thread nD τ) (mw t) fullShare ((dat V c).after 1 t) from by
        unfold Dat.leavesExact; rw [live_w t], after_w]
      rw [show (dat V c).leavesExact 2 t = owns (c : Thread nD τ) (mb t) fullShare ((dat V c).after 2 t) from by
        unfold Dat.leavesExact; rw [live_b t], after_b]
      rw [Dat.leavesExact_idle (dat V c) 3 t (idle_out_first t ((isFirst_iff t).mpr h0) (fun h => h1 ((isLast_iff t).mp h))) (noFlush_out_first t ((isFirst_iff t).mpr h0) (fun h => h1 ((isLast_iff t).mp h)))]
      rw [outsAt_first V c t h0 h1]
      unfold accFirst; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((runFirst c (grid0.coords t) _ _ _ _ _ _ _ _ _ _ ((isFirst_iff t).mpr h0) (fun h => h1 ((isLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accFirst c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((runFirst c (grid0.coords t) _ _ _ _ _ _ _ _ _ _ ((isFirst_iff t).mpr h0) (fun h => h1 ((isLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accFirst c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat V c).leavesExact 0 t = owns (c : Thread nD τ) (mx t) fullShare ((dat V c).after 0 t) from by
        unfold Dat.leavesExact; rw [live_x t], after_x]
      rw [show (dat V c).leavesExact 1 t = owns (c : Thread nD τ) (mw t) fullShare ((dat V c).after 1 t) from by
        unfold Dat.leavesExact; rw [live_w t], after_w]
      rw [show (dat V c).leavesExact 2 t = owns (c : Thread nD τ) (mb t) fullShare ((dat V c).after 2 t) from by
        unfold Dat.leavesExact; rw [live_b t], after_b]
      rw [show (dat V c).leavesExact 3 t = owns (c : Thread nD τ) (mo t) fullShare ((dat V c).after 3 t) from by
        unfold Dat.leavesExact; rw [live_out_last t (fun h => h0 ((isFirst_iff t).mp h)) ((isLast_iff t).mpr h1)], after_out]
      rw [outsAt_last V c t h0 h1]
      unfold outLast accLast; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((runLast c (grid0.coords t) _ _ _ _ _ _ _ _ _ _ (fun h => h0 ((isFirst_iff t).mp h)) ((isLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accLast c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_outLast c _ _ _ _ _ _ _ _ _ _ _ _ _ _ _ _ _)
    · rw [show (dat V c).leavesExact 0 t = owns (c : Thread nD τ) (mx t) fullShare ((dat V c).after 0 t) from by
        unfold Dat.leavesExact; rw [live_x t], after_x]
      rw [show (dat V c).leavesExact 1 t = owns (c : Thread nD τ) (mw t) fullShare ((dat V c).after 1 t) from by
        unfold Dat.leavesExact; rw [live_w t], after_w]
      rw [show (dat V c).leavesExact 2 t = owns (c : Thread nD τ) (mb t) fullShare ((dat V c).after 2 t) from by
        unfold Dat.leavesExact; rw [live_b t], after_b]
      rw [Dat.leavesExact_idle (dat V c) 3 t (idle_out_mid t (fun h => h0 ((isFirst_iff t).mp h)) (fun h => h1 ((isLast_iff t).mp h))) (noFlush_out_mid t (fun h => h0 ((isFirst_iff t).mp h)) (fun h => h1 ((isLast_iff t).mp h)))]
      rw [outsAt_mid V c t h0 h1]
      unfold accMid; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((runMid c (grid0.coords t) _ _ _ _ _ _ _ _ _ _ (fun h => h0 ((isFirst_iff t).mp h)) (fun h => h1 ((isLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (cover_accMid c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨⟨HS0, Hrest⟩, Hg⟩
  isplitl [HS0 Hrest]
  · isplitl [HS0]
    · iexists _; iexact HS0
    iexact Hrest
  iexact Hg

end

end Cert.KernelIdeal.Hidden

end
-- ==== Proof.Ideal.OutputFrame.lean ====
/-
  The output layer's region (the second launch): h · sign(w2)ᵀ + b2 over a grid of 8 row tiles of 512 rows. The whole
  contraction (4096 terms) happens in one product per point; the body reads the row tile of h, the whole sign matrix
  of w2 and the bias row, and stores its 512 × 1024 block once. No state is kept between points.
  Stated at a parameter `V`, the buffers' contents when the region is entered.
-/
import proofs.«174947_j72980084293793_2_alg».proof.Proof.Gen.KernelIdeal.Launch
import proofs.«174947_j72980084293793_2_alg».proof.Proof.Gen.KernelIdeal.Skeleton
import proofs.«174947_j72980084293793_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Output

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of h is in its staging buffer at every point. -/
theorem before_h_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The sign matrix of w2, fetched once, stays in its one staging buffer. -/
theorem before_w_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- So does the bias row. -/
theorem before_b_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The body's accesses: every load and the one store take the whole block -/

abbrev rH : Rect S512x4096 := Rect.unit (s := S512x4096) ![0, 0] S512x4096.size inb_S512x4096_S512x4096_0_0
abbrev rW : Rect S1024x4096 := Rect.unit (s := S1024x4096) ![0, 0] S1024x4096.size inb_S1024x4096_S1024x4096_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- What the body leaves in the output block's staging buffer, from the three input blocks: its one store. -/
def outBlock (x0 : Vec F S512x4096 .bf16) (x1 : Vec F S1024x4096 .bf16) (x2 : Vec F S1x1024 .f32) : Vec F S512x1024 .f32 :=
  View.canon [⟨rO, k1_pay1 (View.ld x0 rH) (View.ld x1 rW) (View.ld x2 rB)⟩]

/-- The one store covers the block. -/
theorem cover_out (p0 : Vec F S512x1024 .f32) (y : S512x1024.Idx) :
    ∃ pc ∈ ([⟨rO, p0⟩] : List (View.Piece (Elt F) S512x1024 .f32)), y ∈ pc.1.set :=
  View.cover_of_tiled [⟨rO, p0⟩] S512x1024.size (by rfl) y

set_option maxHeartbeats 2000000 in
/-- The body on whole staging memrefs: the inputs' at their contents, the output's at anything, to the inputs as they
    were and the output at `outBlock` of the inputs. -/
theorem sound_kernel (c : Dev nD) (E : Set ℕ) (i : grid1.Coords) (arg1 : Memref sig .tc .vmem S512x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .f32) (harg4 : arg4.IsWhole)
    (x0 : Vec F S512x4096 .bf16) (x1 : Vec F S1024x4096 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc1__fc2_kernel i arg1 harg1 arg2 harg2 arg3 harg3 arg4 harg4) K := by
  simp only [cc1__fc2_kernel_eq_skeleton]; unfold cc1__fc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

section
variable (V : (c : Dev nD) → (b : Ref sig .tc) → Buf (Elt F) ((c : Thread nD τ).loc b))

/-! ## The pipeline's proof data -/

/-- The arrays as the region finds them; after the body each input's buffer at its block and the output's at
    `outBlock` of the input blocks; the class's invariant (nothing kept between points); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlock (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_h (c : Dev nD) (t : Fin cfg1.N) : (dat V c).after 0 t = iblk V c 0 t := by dsimp only [dat]
theorem after_w (c : Dev nD) (t : Fin cfg1.N) : (dat V c).after 1 t = iblk V c 1 t := by dsimp only [dat]
theorem after_b (c : Dev nD) (t : Fin cfg1.N) : (dat V c).after 2 t = iblk V c 2 t := by dsimp only [dat]
theorem after_out (c : Dev nD) (t : Fin cfg1.N) : (dat V c).after 3 t = outBlock (iblk V c 0 t) (iblk V c 1 t) (iblk V c 2 t) := by dsimp only [dat]

theorem before_h (c : Dev nD) (t : Fin cfg1.N) (d) : (dat V c).before 0 t d = iblk V c 0 t :=
  before_h_of V (dat V c) (A_eq V c 0) (after_h V c) t d
theorem before_w (c : Dev nD) (t : Fin cfg1.N) (d) : (dat V c).before 1 t d = iblk V c 1 t :=
  before_w_of V (dat V c) (A_eq V c 1) (after_w V c) t d
theorem before_b (c : Dev nD) (t : Fin cfg1.N) (d) : (dat V c).before 2 t d = iblk V c 2 t :=
  before_b_of V (dat V c) (A_eq V c 2) (after_b V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_h, before_w, before_b]
  rw [show (dat V c).Φ t.succ = (dat V c).Φ t.castSucc from rfl,
    show (dat V c).owesAt () t.succ = (dat V c).owesAt () t.castSucc from rfl,
    after_h, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end

end Cert.KernelIdeal.Output

end
-- ==== Proof.Ideal.Run.lean ====
/-
  The whole program as a run: five stretches of host operations (the casts, the two sign matrices, the two bias rows
  reshaped), the hidden layer's launch, the output layer's launch. Between two items every unscoped buffer of the core
  is held at that boundary's contents: the launch memory, then each stretch's operations applied, then at a launch's exit
  its arrays at what its write-backs leave and everything else as entered. The hidden layer's launch enters and leaves
  through the class invariant (its accumulator at anything), keeping the accumulator's contents named only in between.
  The run ends with every unscoped buffer read at the last boundary's contents — the arguments as launched, the result
  array at what the output layer's write-backs leave.
-/
import proofs.«174947_j72980084293793_2_alg».proof.Proof.Ideal.HiddenFrame
import proofs.«174947_j72980084293793_2_alg».proof.Proof.Ideal.OutputFrame
import proofs.«174947_j72980084293793_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two launches' boundaries -/

/-- The hidden layer's launch is entered after the five host stretches. -/
abbrev E5 : (c : Dev nD) → (b : Ref sig .tc) → Buf (Elt F) ((c : Thread nD τ).loc b) := fun c b => Gen.V5 m c b

/-- At its exit: its arrays at what the pipeline leaves, every other buffer as entered. -/
def W6 (c : Dev nD) : Valuation τ sig (Elt F) :=
  Pipeline.withArrays spec0 c (Gen.V5 m c) fun w => (Hidden.dat (E5 m) c).arrAt w cfg0.N
theorem W6_arr (c : Dev nD) (w : Fin cfg0.W) :
    W6 m c (Proc.devRef .tc (Pipeline.arrRef spec0 w)) = (Hidden.dat (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = Gen.V5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (Hidden.dat (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- At the output layer's exit (the program's end): the same, over what the hidden layer's launch left. -/
def W7 (c : Dev nD) : Valuation τ sig (Elt F) :=
  Pipeline.withArrays spec1 c (W6 m c) fun w => (Output.dat (E6 m) c).arrAt w cfg1.N
theorem W7_arr (c : Dev nD) (w : Fin cfg1.W) :
    W7 m c (Proc.devRef .tc (Pipeline.arrRef spec1 w)) = (Output.dat (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (Output.dat (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-! ### No item writes an argument: at the end each holds its launch contents -/

theorem W7_main_arg0 (c : Dev nD) : W7 m c (Proc.devRef .tc main_arg0) = m ((c : Thread nD τ).loc main_arg0) :=
  (W7_of_ne m c main_arg0 (by decide)).trans <| (W6_of_ne m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W7_main_arg1 (c : Dev nD) : W7 m c (Proc.devRef .tc main_arg1) = m ((c : Thread nD τ).loc main_arg1) :=
  (W7_of_ne m c main_arg1 (by decide)).trans <| (W6_of_ne m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W7_main_arg2 (c : Dev nD) : W7 m c (Proc.devRef .tc main_arg2) = m ((c : Thread nD τ).loc main_arg2) :=
  (W7_of_ne m c main_arg2 (by decide)).trans <| (W6_of_ne m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W7_main_arg3 (c : Dev nD) : W7 m c (Proc.devRef .tc main_arg3) = m ((c : Thread nD τ).loc main_arg3) :=
  (W7_of_ne m c main_arg3 (by decide)).trans <| (W6_of_ne m c main_arg3 (by decide)).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W7_main_arg4 (c : Dev nD) : W7 m c (Proc.devRef .tc main_arg4) = m ((c : Thread nD τ).loc main_arg4) :=
  (W7_of_ne m c main_arg4 (by decide)).trans <| (W6_of_ne m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl

/-! ## The proof data family and the thread state -/

/-- Each launch's proof data at its entry contents. -/
def pdats : (p : Fin 2) → (c : Dev nD) → Dat τ (Elt F) Unit ℕ (UR sig nD τ) ℕ (Pipeline.pin (pcfgs (F := F)) adm p) c
  | ⟨0, _⟩ => fun c => Hidden.dat (E5 m) c
  | ⟨1, _⟩ => fun c => Output.dat (E6 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The two launches as segments -/

set_option backward.isDefEq.respectTransparency.types false in
/-- The hidden layer's launch: its arrays split out of the unscoped buffers and put back at the exit contents; the
    generator register and the scoped buffers into the invariant before the first point (the class's) and, after the
    last point, out of the invariant that names the accumulator's contents, which are then forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hidden.body_obligation (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hidden.hin (E5 m) c)
    unfold Pipeline.ΦA
    iintro ⟨Hp, -, Hr⟩
    isplitl [Hr]; · iexact Hr
    iexact Hp
  hout c := by
    rw [Pipeline.ownSems0_none]
    refine (Hidden.hout (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output layer's launch, the same way; it keeps nothing between points, so its invariant is the class's throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Output.body_obligation (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m) ]

set_option backward.isDefEq.respectTransparency.types false in
/-- THE RUN. From any memory with zero counters every weakly fair execution of the program terminates, nothing
    faulting, and every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run m ρ)

end Cert.KernelIdeal.Run

end
-- ==== Proof.Ideal.HiddenPieces.lean ====
/-
  What the hidden layer's body leaves, case by case, as terms of its three payloads: the zero splat Z, the accumulation
  A(x, s, a) = a + x · sᵀ of one tile product into a, and the emission E(a, b) = max(a + b, 0) of the output block.
  First tile: the accumulator ends at A(x, s, Z). Later tiles: at A(x, s, a) for the contents a found. Last tile: the
  output block is E(A(x, s, a), b). Every load and store takes the whole block, so a list of stores reads back as its
  last store's payload, and a load after a store reads that store's payload.
-/
import proofs.«174947_j72980084293793_2_alg».proof.Proof.Ideal.HiddenFrame
import Idealize.ShloMosaic.Lib.Pipeline.Value

set_option maxRecDepth 16384

noncomputable section

namespace Cert.KernelIdeal.Hidden

open Idealize.ShloMosaic Idealize.ShloMosaic.TcCoe Idealize.ShloMosaic.Tactic
open Idealize.SL Idealize.SL.Sem
open Cert.KernelIdeal Cert.KernelIdeal.Gen

variable {F : FTy → Type} [FloatOps F]

theorem offZero : (![0, 0] : Fin 2 → Nat) = fun _ => 0 := funext fun a => by fin_cases a <;> rfl

/-- The first tile leaves the accumulator at the tile product added to the zero splat. -/
theorem accFirst_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst i) (hc1 : ¬isLast i)
    (x0 : Vec F S2048x1024 .bf16) (x1 : Vec F S1024x1024 .bf16) (x2 : Vec F S1x1024 .f32) :
    accFirst c i arg3 harg3 arg4 harg4 arg5 harg5 arg6 harg6 arg7 harg7 hc0 hc1 x0 x1 x2 = k0_pay2 x0 x1 (k0_pay1 (F := F)) := by
  unfold accFirst
  rw [View.read_writes_eq_canon _ _ _ (cover_accFirst c i arg3 harg3 arg4 harg4 arg5 harg5 arg6 harg6 arg7 harg7 hc0 hc1 x0 x1 x2)]
  unfold runFirst
  dsimp only
  sl_unfold_words
  rw [View.canon_cons_unit_zero offZero]
  simp only [View.readAt_eq_ld, harg3.read_unread, harg4.read_unread, View.readCov_unit_zero (S := S2048x1024) _ offZero,
    View.ld_unit_zero (S := S2048x1024) offZero, View.ld_unit_zero (S := S1024x1024) offZero]
  all_goals rfl

/-- A middle tile leaves the accumulator at the tile product added to what it held. -/
theorem accMid_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : ¬isLast i)
    (x0 : Vec F S2048x1024 .bf16) (x1 : Vec F S1024x1024 .bf16) (x2 : Vec F S1x1024 .f32) (xs : Vec F S2048x1024 .f32) :
    accMid c i arg3 harg3 arg4 harg4 arg5 harg5 arg6 harg6 arg7 harg7 hc0 hc1 x0 x1 x2 xs = k0_pay2 x0 x1 xs := by
  unfold accMid
  rw [View.read_writes_eq_canon _ _ _ (cover_accMid c i arg3 harg3 arg4 harg4 arg5 harg5 arg6 harg6 arg7 harg7 hc0 hc1 x0 x1 x2 xs)]
  unfold runMid
  dsimp only
  sl_unfold_words
  rw [View.canon_unit_zero offZero]
  simp only [View.readAt_eq_ld, harg3.read_unread, harg4.read_unread, harg7.read_unread,
    View.ld_unit_zero (S := S2048x1024) offZero, View.ld_unit_zero (S := S1024x1024) offZero]
  all_goals rfl

/-- So does the last tile. -/
theorem accLast_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) :
    accLast c i arg3 harg3 arg4 harg4 arg5 harg5 arg6 harg6 arg7 harg7 hc0 hc1 x0 x1 x2 xs = k0_pay2 x0 x1 xs := by
  unfold accLast
  rw [View.read_writes_eq_canon _ _ _ (cover_accLast c i arg3 harg3 arg4 harg4 arg5 harg5 arg6 harg6 arg7 harg7 hc0 hc1 x0 x1 x2 xs)]
  unfold runLast
  dsimp only
  sl_unfold_words
  rw [View.canon_unit_zero offZero]
  simp only [View.readAt_eq_ld, harg3.read_unread, harg4.read_unread, harg7.read_unread,
    View.ld_unit_zero (S := S2048x1024) offZero, View.ld_unit_zero (S := S1024x1024) offZero]
  all_goals rfl

/-- The last tile's output block: the emission of the updated accumulator and the bias row. -/
theorem outLast_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst i) (hc1 : isLast i)
    (x0 : Vec F S2048x1024 .bf16) (x1 : Vec F S1024x1024 .bf16) (x2 : Vec F S1x1024 .f32) (xs : Vec F S2048x1024 .f32) :
    outLast c i arg3 harg3 arg4 harg4 arg5 harg5 arg6 harg6 arg7 harg7 hc0 hc1 x0 x1 x2 xs = k0_pay3 (k0_pay2 x0 x1 xs) x2 := by
  unfold outLast
  rw [View.read_writes_eq_canon _ _ _ (cover_outLast c i arg3 harg3 arg4 harg4 arg5 harg5 arg6 harg6 arg7 harg7 hc0 hc1 x0 x1 x2 xs)]
  unfold runLast
  dsimp only
  sl_unfold_words
  rw [View.canon_unit_zero offZero]
  simp only [View.readAt_eq_ld, harg3.read_unread, harg4.read_unread, harg5.read_unread, harg7.read_unread,
    View.readCov_unit_zero (S := S2048x1024) _ offZero,
    View.ld_unit_zero (S := S2048x1024) offZero, View.ld_unit_zero (S := S1024x1024) offZero, View.ld_unit_zero (S := S1x1024) offZero]
  all_goals rfl

end Cert.KernelIdeal.Hidden

end
-- ==== Proof.LibMatmulNT.lean ====
/-
  A matrix product against a transposed right operand, into a zero accumulator, read at an entry.

  For a dot whose dimension numbers contract the left operand's columns against the right operand's COLUMNS, with no
  batch axis — `[M, K] × [N, K] → [M, N]`, the product `lhs · rhsᵀ` — the product accumulated into the zero splat is,
  at the extended reals, the textbook sum: entry `(p, c)` is the sum over `k` of `lhs (p, k) · rhs (c, k)`. The
  dimension numbers enter only through four coordinate facts about the dot's operand indices (which a literal record
  proves by evaluating its membership tests) and the fact that exactly one axis, of extent `K`, is contracted; the
  lemma is general in the extents, the element types and the contraction precision, so it serves every such product of
  a kernel body (scores of queries against keys, a projection by a weight stored output-channel first).
-/
import Idealize.ShloMosaic.PureOps.Ideal.Laws
import Idealize.ShloMosaic.Lib.ValueIdx

noncomputable section

namespace Cert.LibMatmulNT

open Idealize.ShloMosaic Idealize.ShloMosaic.ValueIdx
open scoped BigOperators

/-- Entry `(p, c)` of `lhs · rhsᵀ` accumulated into zero is `Σ k, lhs (p, k) · rhs (c, k)`: the dot's sum over its
    one-axis contraction index, re-indexed along the bijection of that index with `Fin K`, each operand index then
    identified by its two coordinates. -/
theorem matmul_nt_zero_ix2 {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (c : Fin N) :
    matmul D prec lhs rhs (constant ⟨2, ![M, N]⟩ .f32 0x00000000#32) (ix2 p c)
      = ∑ k : Fin K, lhs (ix2 p k) * rhs (ix2 c k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.LibMatmulNT

end
-- ==== Proof.Ideal.Entries.lean ====
/-
  The kernel bodies' payloads read at one entry, at the extended reals.
    Z(p, q) = 0
    A(x, s, a)(p, q) = a(p, q) + Σ_{j < 1024} x(p, j) · s(q, j)          (one tile product, the right operand transposed)
    E(a, b)(p, q) = max(a(p, q) + b(0, q), 0)                            (bias row broadcast over the rows, clamp at zero)
    O(h, s, b)(p, q) = Σ_{j < 4096} h(p, j) · s(q, j) + b(0, q)          (the output layer's whole product plus bias)
  A change of float format is the identity here, a cast to the same shape is the identity, and the matrix unit's product
  into the zero splat is the textbook sum.
-/
import proofs.«174947_j72980084293793_2_alg».proof.Proof.Gen.KernelIdeal.Skeleton
import proofs.«174947_j72980084293793_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Entries

open Idealize.ShloMosaic Idealize.ShloMosaic.ValueIdx
open Cert.KernelIdeal Cert.KernelIdeal.Gen

/-! ## The two products' operand indices, coordinate by coordinate -/

theorem dot_S2048x1024_S1024x1024_S2048x1024_1_1_0_0_n_n_l0 (i : S2048x1024.Idx) (q : dot_S2048x1024_S1024x1024_S2048x1024_1_1_0_0_n_n.contr.Idx) : (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem dot_S2048x1024_S1024x1024_S2048x1024_1_1_0_0_n_n_l1 (i : S2048x1024.Idx) (q : dot_S2048x1024_S1024x1024_S2048x1024_1_1_0_0_n_n.contr.Idx) : (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem dot_S2048x1024_S1024x1024_S2048x1024_1_1_0_0_n_n_r0 (i : S2048x1024.Idx) (q : dot_S2048x1024_S1024x1024_S2048x1024_1_1_0_0_n_n.contr.Idx) : (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem dot_S2048x1024_S1024x1024_S2048x1024_1_1_0_0_n_n_r1 (i : S2048x1024.Idx) (q : dot_S2048x1024_S1024x1024_S2048x1024_1_1_0_0_n_n.contr.Idx) : (dot_S2048x1024_S1024x1024_S2048x1024_1_1_0_0_n_n.rhsIdx i q 1).val = (q ⟨0, by decide⟩).val :=
  dot_S2048x1024_S1024x1024_S2048x1024_1_1_0_0_n_n.rhsIdx_val_of_single rfl i q

theorem dot_S512x4096_S1024x4096_S512x1024_1_1_0_0_n_n_l0 (i : S512x1024.Idx) (q : dot_S512x4096_S1024x4096_S512x1024_1_1_0_0_n_n.contr.Idx) : (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem dot_S512x4096_S1024x4096_S512x1024_1_1_0_0_n_n_l1 (i : S512x1024.Idx) (q : dot_S512x4096_S1024x4096_S512x1024_1_1_0_0_n_n.contr.Idx) : (dot_S512x4096_S1024x4096_S512x1024_1_1_0_0_n_n.lhsIdx i q 1).val = (q ⟨0, by decide⟩).val :=
  dot_S512x4096_S1024x4096_S512x1024_1_1_0_0_n_n.lhsIdx_val_of_single rfl i q
theorem dot_S512x4096_S1024x4096_S512x1024_1_1_0_0_n_n_r0 (i : S512x1024.Idx) (q : dot_S512x4096_S1024x4096_S512x1024_1_1_0_0_n_n.contr.Idx) : (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem dot_S512x4096_S1024x4096_S512x1024_1_1_0_0_n_n_r1 (i : S512x1024.Idx) (q : dot_S512x4096_S1024x4096_S512x1024_1_1_0_0_n_n.contr.Idx) : (dot_S512x4096_S1024x4096_S512x1024_1_1_0_0_n_n.rhsIdx i q 1).val = (q ⟨0, by decide⟩).val :=
  dot_S512x4096_S1024x4096_S512x1024_1_1_0_0_n_n.rhsIdx_val_of_single rfl i q

/-! ## The payloads at an entry -/

/-- The zero splat is zero. -/
theorem zero_apply (y : S2048x1024.Idx) : k0_pay1 (F := Ideal) y = 0 := by
  unfold k0_pay1
  rw [shapeCast_self]
  exact Ideal.ofBits_zero_f32

/-- One tile product added into the accumulator. -/
theorem acc_apply (x : Vec Ideal S2048x1024 .bf16) (s : Vec Ideal S1024x1024 .bf16) (a : Vec Ideal S2048x1024 .f32)
    (p : Fin 2048) (q : Fin 1024) :
    k0_pay2 (F := Ideal) x s a (ix2 p q) = a (ix2 p q) + ∑ j : Fin 1024, x (ix2 p j) * s (ix2 q j) := by
  unfold k0_pay2
  rw [shapeCast_self, shapeCast_self, shapeCast_self, addf_apply]
  exact congrArg (a (ix2 p q) + ·) (Cert.LibMatmulNT.matmul_nt_zero_ix2 dot_S2048x1024_S1024x1024_S2048x1024_1_1_0_0_n_n none rfl rfl dot_S2048x1024_S1024x1024_S2048x1024_1_1_0_0_n_n_l0 dot_S2048x1024_S1024x1024_S2048x1024_1_1_0_0_n_n_l1 dot_S2048x1024_S1024x1024_S2048x1024_1_1_0_0_n_n_r0 dot_S2048x1024_S1024x1024_S2048x1024_1_1_0_0_n_n_r1 x s p q)

/-- The output block from the accumulator and the bias row. -/
theorem emit_apply (a : Vec Ideal S2048x1024 .f32) (b : Vec Ideal S1x1024 .f32) (p : Fin 2048) (q : Fin 1024) :
    k0_pay3 (F := Ideal) a b (ix2 p q) = max (a (ix2 p q) + b (ix2 (0 : Fin 1) q)) (Ideal.ofBits .f32 0x00000000#32) := by
  unfold k0_pay3
  rw [truncf_apply, maximumf_apply, addf_apply, shapeCast_self, broadcastTo_1b_ab_apply]
  rfl

/-- The output layer's block from the row tile of h, the sign matrix and the bias row. -/
theorem out_apply (h : Vec Ideal S512x4096 .bf16) (s : Vec Ideal S1024x4096 .bf16) (b : Vec Ideal S1x1024 .f32)
    (p : Fin 512) (q : Fin 1024) :
    k1_pay1 (F := Ideal) h s b (ix2 p q) = (∑ j : Fin 4096, h (ix2 p j) * s (ix2 q j)) + b (ix2 (0 : Fin 1) q) := by
  unfold k1_pay1
  rw [addf_apply, shapeCast_self, shapeCast_self, shapeCast_self, broadcastTo_1b_ab_apply]
  exact congrArg (· + b (ix2 (0 : Fin 1) q)) (Cert.LibMatmulNT.matmul_nt_zero_ix2 dot_S512x4096_S1024x4096_S512x1024_1_1_0_0_n_n none rfl rfl dot_S512x4096_S1024x4096_S512x1024_1_1_0_0_n_n_l0 dot_S512x4096_S1024x4096_S512x1024_1_1_0_0_n_n_l1 dot_S512x4096_S1024x4096_S512x1024_1_1_0_0_n_n_r0 dot_S512x4096_S1024x4096_S512x1024_1_1_0_0_n_n_r1 h s p q)

end Cert.KernelIdeal.Entries

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.Ideal.HiddenValue.lean ====
/-
  What the hidden layer's launch leaves in its result array, at the extended reals.
  Point t of the 2 × 4 × 4 grid has row tile t / 16, column tile (t / 4) mod 4 and contraction tile t mod 4. With
  r = 2048 · (t / 16) + p and o = 1024 · ((t / 4) mod 4) + q, the accumulator's entry (p, q) after point t is the running
  sum, block by block of 1024 terms and started from zero, of the family k ↦ X(r, k) · S(o, k) up to block t mod 4
  (X the rows of x, S the sign matrix of w1): at k = 0 the zero splat plus block 0, afterwards the point before plus
  this point's block. After block 3 that is the whole sum over 4096 terms, so the block written back at a last tile is
  max(Σ_k X(r, k) · S(o, k) + B(0, o), 0), and those blocks tile the array.
-/
import proofs.«174947_j72980084293793_2_alg».proof.Proof.Ideal.HiddenPieces
import proofs.«174947_j72980084293793_2_alg».proof.Proof.Ideal.Entries
import proofs.«174947_j72980084293793_2_alg».proof.Proof.LibBlockSums
import Idealize.ShloMosaic.Lib.Pipeline.Value
import Idealize.ShloMosaic.Lib.ValueIdx

set_option maxRecDepth 16384

noncomputable section

namespace Cert.KernelIdeal.Hidden

open Idealize.ShloMosaic Idealize.ShloMosaic.TcCoe Idealize.ShloMosaic.ValueIdx
open Idealize.SL Idealize.SL.Sem
open Idealize.ShloMosaic.Pipeline (Dat)
open Cert.KernelIdeal Cert.KernelIdeal.Gen BlockSums

/-- The windows' block indices at each point, decided over the grid. -/
theorem idx_facts : ∀ t : Fin cfg0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = 0 ∧ win0_2.index t (1 : Fin 2) = (t.val / 4) % 4
    ∧ win0_3.index t (0 : Fin 2) = t.val / 16 ∧ win0_3.index t (1 : Fin 2) = (t.val / 4) % 4 :=
  (by decide +kernel : ∀ t : Fin grid0.N, _)

variable (V : (c : Dev nD) → (b : Ref sig .tc) → Buf (Elt Ideal) ((c : Thread nD τ).loc b))

/-- The three arrays the launch reads, as the region finds them. -/
abbrev X (c : Dev nD) : S4096x4096.Idx → Ideal .bf16 := V c main_v0
abbrev S (c : Dev nD) : S4096x4096.Idx → Ideal .bf16 := V c main_v4
abbrev B (c : Dev nD) : S1x4096.Idx → Ideal .f32 := V c main_v9

/-- The products contracted for row `r` of x against row `o` of the sign matrix. -/
def fam (c : Dev nD) (r o : ℕ) (hr : r < 4096) (ho : o < 4096) : Fin 4096 → EReal :=
  fun k => X V c (ix2 ⟨r, hr⟩ k) * S V c (ix2 ⟨o, ho⟩ k)

/-- The result array: relu of the row-by-row products plus the bias. -/
def hiddenOf (c : Dev nD) : S4096x4096.Idx → Ideal .bf16 :=
  fun i => max ((∑ k : Fin 4096, X V c (ix2 (i 0) k) * S V c (ix2 (i 1) k)) + B V c (ix2 (0 : Fin 1) (i 1))) (Ideal.ofBits .f32 0x00000000#32)

/-- The result function at explicit coordinates. -/
theorem hiddenOf_ix2 (c : Dev nD) (r o : Fin 4096) :
    hiddenOf V c (ix2 r o) = max ((∑ k : Fin 4096, X V c (ix2 r k) * S V c (ix2 o k)) + B V c (ix2 (0 : Fin 1) o)) (Ideal.ofBits .f32 0x00000000#32) := rfl

/-! ## The input blocks read at an entry -/

/-- The three input blocks of point `n`, at their literal shapes. -/
abbrev xBlock (c : Dev nD) (n : ℕ) (hn : n < cfg0.N) : Vec Ideal S2048x1024 .bf16 := iblk V c 0 ⟨n, hn⟩
abbrev sBlock (c : Dev nD) (n : ℕ) (hn : n < cfg0.N) : Vec Ideal S1024x1024 .bf16 := iblk V c 1 ⟨n, hn⟩
abbrev bBlock (c : Dev nD) (n : ℕ) (hn : n < cfg0.N) : Vec Ideal S1x1024 .f32 := iblk V c 2 ⟨n, hn⟩

theorem blk_x (c : Dev nD) (n : ℕ) (hn : n < cfg0.N) (p : Fin 2048) (j : Fin 1024) (hr : 2048 * (n / 16) + p.val < 4096) (hk : j.val + 1024 * (n % 4) < 4096) :
    xBlock V c n hn (ix2 p j) = X V c (ix2 ⟨2048 * (n / 16) + p.val, hr⟩ ⟨j.val + 1024 * (n % 4), hk⟩) := by
  obtain ⟨e0, e1, -⟩ := idx_facts ⟨n, hn⟩
  show X V c (((cfg0.win 0).blk ⟨n, hn⟩).view.emb (ix2 p j)) = _
  refine congrArg _ (funext fun a => Fin.ext ?_)
  match a with
  | ⟨0, _⟩ => show win0_0.index ⟨n, hn⟩ (0 : Fin 2) * 2048 + 1 * p.val = 2048 * (n / 16) + p.val; (try dsimp only at e0); omega
  | ⟨1, _⟩ => show win0_0.index ⟨n, hn⟩ (1 : Fin 2) * 1024 + 1 * j.val = j.val + 1024 * (n % 4); (try dsimp only at e1); omega

theorem blk_s (c : Dev nD) (n : ℕ) (hn : n < cfg0.N) (q : Fin 1024) (j : Fin 1024) (ho : 1024 * ((n / 4) % 4) + q.val < 4096) (hk : j.val + 1024 * (n % 4) < 4096) :
    sBlock V c n hn (ix2 q j) = S V c (ix2 ⟨1024 * ((n / 4) % 4) + q.val, ho⟩ ⟨j.val + 1024 * (n % 4), hk⟩) := by
  obtain ⟨-, -, e2, e3, -⟩ := idx_facts ⟨n, hn⟩
  show S V c (((cfg0.win 1).blk ⟨n, hn⟩).view.emb (ix2 q j)) = _
  refine congrArg _ (funext fun a => Fin.ext ?_)
  match a with
  | ⟨0, _⟩ => show win0_1.index ⟨n, hn⟩ (0 : Fin 2) * 1024 + 1 * q.val = 1024 * ((n / 4) % 4) + q.val; (try dsimp only at e2); omega
  | ⟨1, _⟩ => show win0_1.index ⟨n, hn⟩ (1 : Fin 2) * 1024 + 1 * j.val = j.val + 1024 * (n % 4); (try dsimp only at e3); omega

theorem blk_b (c : Dev nD) (n : ℕ) (hn : n < cfg0.N) (q : Fin 1024) (ho : 1024 * ((n / 4) % 4) + q.val < 4096) :
    bBlock V c n hn (ix2 (0 : Fin 1) q) = B V c (ix2 (0 : Fin 1) ⟨1024 * ((n / 4) % 4) + q.val, ho⟩) := by
  obtain ⟨-, -, -, -, e4, e5, -⟩ := idx_facts ⟨n, hn⟩
  show B V c (((cfg0.win 2).blk ⟨n, hn⟩).view.emb (ix2 (0 : Fin 1) q)) = _
  refine congrArg _ (funext fun a => Fin.ext ?_)
  match a with
  | ⟨0, _⟩ => show win0_2.index ⟨n, hn⟩ (0 : Fin 2) * 1 + 1 * 0 = 0; (try dsimp only at e4); omega
  | ⟨1, _⟩ => show win0_2.index ⟨n, hn⟩ (1 : Fin 2) * 1024 + 1 * q.val = 1024 * ((n / 4) % 4) + q.val; (try dsimp only at e5); omega

/-- One point's tile product is one block of the family's sum. -/
theorem tile_eq (c : Dev nD) (n : ℕ) (hn : n < cfg0.N) (p : Fin 2048) (q : Fin 1024) (r o : ℕ) (hr : r < 4096) (ho : o < 4096)
    (er : r = 2048 * (n / 16) + p.val) (eo : o = 1024 * ((n / 4) % 4) + q.val) :
    ∑ j : Fin 1024, xBlock V c n hn (ix2 p j) * sBlock V c n hn (ix2 q j) = blockSum 1024 (fam V c r o hr ho) (n % 4) := by
  subst er eo
  rw [blockSum_eq 1024 _ (n % 4) (by omega)]
  refine Finset.sum_congr rfl fun j _ => ?_
  rw [blk_x V c n hn p j hr (by have := j.isLt; omega), blk_s V c n hn q j ho (by have := j.isLt; omega)]
  rfl

/-! ## The accumulator, point by point -/

theorem acc_inv (c : Dev nD) : ∀ (n : ℕ) (hn : n < cfg0.N) (p : Fin 2048) (q : Fin 1024) (r o : ℕ) (hr : r < 4096) (ho : o < 4096),
    r = 2048 * (n / 16) + p.val → o = 1024 * ((n / 4) % 4) + q.val →
    (outsAt V c n hn).2 (ix2 p q) = runSum 1024 (fam V c r o hr ho) (n % 4) := by
  intro n
  induction n with
  | zero =>
    intro hn p q r o hr ho er eo
    have h : outsAt V c 0 hn = _ := outsAt_first V c ⟨0, hn⟩ (Nat.zero_mod _) (by show ¬ (0 : ℕ) % 4 = 3; omega)
    rw [h]
    dsimp only
    rw [accFirst_eq]
    refine (Entries.acc_apply (xBlock V c 0 hn) (sBlock V c 0 hn) _ p q).trans ?_
    rw [Entries.zero_apply, tile_eq V c 0 hn p q r o hr ho er eo]
    rfl
  | succ n ih =>
    intro hn p q r o hr ho er eo
    have hN : n + 1 < 32 := lt_of_lt_of_eq hn (show cfg0.N = 32 from N_0)
    by_cases h0 : (n + 1) % 4 = 0
    · have h : outsAt V c (n + 1) hn = _ := outsAt_first V c ⟨n + 1, hn⟩ h0 (by show ¬ (n + 1) % 4 = 3; omega)
      rw [h]
      dsimp only
      rw [accFirst_eq]
      refine (Entries.acc_apply (xBlock V c (n + 1) hn) (sBlock V c (n + 1) hn) _ p q).trans ?_
      rw [Entries.zero_apply, tile_eq V c (n + 1) hn p q r o hr ho er eo, h0]
      rfl
    · have hk : (n + 1) % 4 = n % 4 + 1 := by omega
      have er' : r = 2048 * (n / 16) + p.val := by omega
      have eo' : o = 1024 * ((n / 4) % 4) + q.val := by omega
      have hprev := ih (Nat.lt_of_succ_lt hn) p q r o hr ho er' eo'
      by_cases h1 : (n + 1) % 4 = 3
      · have h : outsAt V c (n + 1) hn = _ := outsAt_last V c ⟨n + 1, hn⟩ h0 h1
        rw [h]
        dsimp only
        rw [accLast_eq]
        refine (Entries.acc_apply (xBlock V c (n + 1) hn) (sBlock V c (n + 1) hn) _ p q).trans ?_
        rw [tile_eq V c (n + 1) hn p q r o hr ho er eo, hk, runSum_succ]
        exact congrArg (· + _) hprev
      · have h : outsAt V c (n + 1) hn = _ := outsAt_mid V c ⟨n + 1, hn⟩ h0 h1
        rw [h]
        dsimp only
        rw [accMid_eq]
        refine (Entries.acc_apply (xBlock V c (n + 1) hn) (sBlock V c (n + 1) hn) _ p q).trans ?_
        rw [tile_eq V c (n + 1) hn p q r o hr ho er eo, hk, runSum_succ]
        exact congrArg (· + _) hprev

/-! ## What a last tile writes back, and the cover -/

/-- At a last contraction tile the block written back is the result function read through the point's block. -/
theorem flushed_out (c : Dev nD) (t : Fin cfg0.N) (hf : (cfg0.win 3).flush t = true) :
    (dat V c).flushed 3 t = ((cfg0.win 3).blk t).view.read (Elt Ideal) (hiddenOf V c) := by
  obtain ⟨n, hn⟩ := t
  have h3 : n % 4 = 3 := (flush0_3 ⟨n, hn⟩).mp hf
  have hN : n < 32 := lt_of_lt_of_eq hn (show cfg0.N = 32 from N_0)
  obtain ⟨-, -, -, -, -, -, e6, e7⟩ := idx_facts ⟨n, hn⟩
  funext y
  obtain ⟨p, q, rfl⟩ : ∃ (p : Fin 2048) (q : Fin 1024), y = ix2 p q := ⟨y 0, y 1, eq_ix2 y⟩
  have hr : 2048 * (n / 16) + p.val < 4096 := by have := p.isLt; omega
  have ho : 1024 * ((n / 4) % 4) + q.val < 4096 := by have := q.isLt; omega
  have hemb : ((cfg0.win 3).blk ⟨n, hn⟩).view.emb (ix2 p q) = ix2 ⟨2048 * (n / 16) + p.val, hr⟩ ⟨1024 * ((n / 4) % 4) + q.val, ho⟩ :=
    funext fun a => Fin.ext (by
      match a with
      | ⟨0, _⟩ => show win0_3.index ⟨n, hn⟩ (0 : Fin 2) * 2048 + 1 * p.val = 2048 * (n / 16) + p.val; (try dsimp only at e6); omega
      | ⟨1, _⟩ => show win0_3.index ⟨n, hn⟩ (1 : Fin 2) * 1024 + 1 * q.val = 1024 * ((n / 4) % 4) + q.val; (try dsimp only at e7); omega)
  have hacc := acc_inv V c n hn p q _ _ hr ho rfl rfl
  have h : outsAt V c n hn = _ := outsAt_last V c ⟨n, hn⟩ (by show ¬ n % 4 = 0; omega) h3
  rw [h] at hacc
  dsimp only at hacc
  rw [accLast_eq, h3, runSum_4x1024] at hacc
  show (outsAt V c n hn).1 (ix2 p q) = hiddenOf V c (((cfg0.win 3).blk ⟨n, hn⟩).view.emb (ix2 p q))
  rw [h, hemb]
  dsimp only
  rw [outLast_eq]
  refine (Entries.emit_apply _ (bBlock V c n hn) p q).trans ?_
  rw [hacc, blk_b V c n hn q ho]
  rfl

/-- An index of the result array is in point `t`'s block iff each coordinate is in the block's range. -/
theorem mem_blk (t : Fin cfg0.N) (i : S4096x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v11).slice (win0_3.rect t)).set ↔ _
  rw [View.set_slice_whole, Rect.mem_set_unit]
  exact Iff.rfl

/-- Every entry of the result array is in the block of some last-tile point. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 32 := N_0
  have hlt : 16 * ((i 0).val / 2048) + 4 * ((i 1).val / 1024) + 3 < cfg0.N := by omega
  obtain ⟨-, -, -, -, -, -, e6, e7⟩ := idx_facts ⟨_, hlt⟩
  refine ⟨⟨_, hlt⟩, (flush0_3 _).mpr (by show (16 * ((i 0).val / 2048) + 4 * ((i 1).val / 1024) + 3) % 4 = 3; omega), ?_⟩
  rw [mem_blk]
  intro a
  match a with
  | ⟨0, _⟩ => show win0_3.index ⟨_, hlt⟩ (0 : Fin 2) * 2048 ≤ (i 0).val ∧ (i 0).val < win0_3.index ⟨_, hlt⟩ (0 : Fin 2) * 2048 + 2048; (try dsimp only at e6); omega
  | ⟨1, _⟩ => show win0_3.index ⟨_, hlt⟩ (1 : Fin 2) * 1024 ≤ (i 1).val ∧ (i 1).val < win0_3.index ⟨_, hlt⟩ (1 : Fin 2) * 1024 + 1024; (try dsimp only at e7); omega

/-- THE RESULT ARRAY after the launch. -/
theorem final (c : Dev nD) : (dat V c).arrAt 3 cfg0.N = hiddenOf V c :=
  (dat V c).arrAt_eq_of_cover 3 (hiddenOf V c) (fun t hf => flushed_out V c t hf) cover

end Cert.KernelIdeal.Hidden

end
-- ==== Proof.Ideal.OutputValue.lean ====
/-
  What the output layer's launch leaves in its result array, at the extended reals. Point t of its 8 points takes rows
  512 · t, …, 512 · t + 511 of h whole, the whole sign matrix of w2 and the whole bias row, and writes back the block
  (p, q) ↦ Σ_{k < 4096} H(512 · t + p, k) · S(q, k) + B(0, q). These blocks tile the 4096 × 1024 result.
-/
import proofs.«174947_j72980084293793_2_alg».proof.Proof.Ideal.OutputFrame
import proofs.«174947_j72980084293793_2_alg».proof.Proof.Ideal.Entries
import Idealize.ShloMosaic.Lib.Pipeline.Value
import Idealize.ShloMosaic.Lib.ValueIdx

set_option maxRecDepth 16384

noncomputable section

namespace Cert.KernelIdeal.Output

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

theorem offZero : (![0, 0] : Fin 2 → Nat) = fun _ => 0 := funext fun a => by fin_cases a <;> rfl

/-- The windows' block indices at each point, decided over the grid. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The three arrays the launch reads, as the region finds them. -/
abbrev H (c : Dev nD) : S4096x4096.Idx → Ideal .bf16 := V c main_v11
abbrev S (c : Dev nD) : S1024x4096.Idx → Ideal .bf16 := V c main_v8
abbrev B (c : Dev nD) : S1x1024.Idx → Ideal .f32 := V c main_v10

/-- The result array: the rows of h against the rows of the sign matrix, plus the bias. -/
def outOf (c : Dev nD) : S4096x1024.Idx → Ideal .f32 :=
  fun i => (∑ k : Fin 4096, H V c (ix2 (i 0) k) * S V c (ix2 (i 1) k)) + B V c (ix2 (0 : Fin 1) (i 1))

/-- The result function at explicit coordinates. -/
theorem outOf_ix2 (c : Dev nD) (r : Fin 4096) (o : Fin 1024) :
    outOf V c (ix2 r o) = (∑ k : Fin 4096, H V c (ix2 r k) * S V c (ix2 o k)) + B V c (ix2 (0 : Fin 1) o) := rfl

/-! ## The input blocks read at an entry -/

/-- The three input blocks of point `t`, at their literal shapes. -/
abbrev hBlock (c : Dev nD) (t : Fin cfg1.N) : Vec Ideal S512x4096 .bf16 := iblk V c 0 t
abbrev sBlock (c : Dev nD) (t : Fin cfg1.N) : Vec Ideal S1024x4096 .bf16 := iblk V c 1 t
abbrev bBlock (c : Dev nD) (t : Fin cfg1.N) : Vec Ideal S1x1024 .f32 := iblk V c 2 t

theorem blk_h (c : Dev nD) (t : Fin cfg1.N) (p : Fin 512) (j : Fin 4096) (hr : 512 * t.val + p.val < 4096) :
    hBlock V c t (ix2 p j) = H V c (ix2 ⟨512 * t.val + p.val, hr⟩ j) := by
  obtain ⟨e0, e1, -⟩ := idx_facts t
  show H V c (((cfg1.win 0).blk t).view.emb (ix2 p j)) = _
  refine congrArg _ (funext fun a => Fin.ext ?_)
  match a with
  | ⟨0, _⟩ => show win1_0.index t (0 : Fin 2) * 512 + 1 * p.val = 512 * t.val + p.val; omega
  | ⟨1, _⟩ => show win1_0.index t (1 : Fin 2) * 4096 + 1 * j.val = j.val; omega

theorem blk_s (c : Dev nD) (t : Fin cfg1.N) (q : Fin 1024) (j : Fin 4096) :
    sBlock V c t (ix2 q j) = S V c (ix2 q j) := by
  obtain ⟨-, -, e2, e3, -⟩ := idx_facts t
  show S V c (((cfg1.win 1).blk t).view.emb (ix2 q j)) = _
  refine congrArg _ (funext fun a => Fin.ext ?_)
  match a with
  | ⟨0, _⟩ => show win1_1.index t (0 : Fin 2) * 1024 + 1 * q.val = q.val; omega
  | ⟨1, _⟩ => show win1_1.index t (1 : Fin 2) * 4096 + 1 * j.val = j.val; omega

theorem blk_b (c : Dev nD) (t : Fin cfg1.N) (q : Fin 1024) :
    bBlock V c t (ix2 (0 : Fin 1) q) = B V c (ix2 (0 : Fin 1) q) := by
  obtain ⟨-, -, -, -, e4, e5, -⟩ := idx_facts t
  show B V c (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q.val = q.val; omega

/-! ## What each point writes back, and the cover -/

theorem block_entry (c : Dev nD) (t : Fin cfg1.N) (p : Fin 512) (q : Fin 1024) (hr : 512 * t.val + p.val < 4096) :
    k1_pay1 (F := Ideal) (hBlock V c t) (sBlock V c t) (bBlock V c t) (ix2 p q) = outOf V c (ix2 ⟨512 * t.val + p.val, hr⟩ q) := by
  refine (Entries.out_apply (hBlock V c t) (sBlock V c t) (bBlock V c t) p q).trans ?_
  rw [blk_b V c t q]
  refine congrArg (· + _) (Finset.sum_congr rfl fun j _ => ?_)
  rw [blk_h V c t p j hr, blk_s V c t q j]

set_option maxHeartbeats 1000000 in
theorem flushed_out (c : Dev nD) (t : Fin cfg1.N) :
    (dat V c).flushed 3 t = ((cfg1.win 3).blk t).view.read (Elt Ideal) (outOf V c) := by
  have hN : t.val < 8 := lt_of_lt_of_eq t.isLt (show cfg1.N = 8 from N_1)
  obtain ⟨-, -, -, -, -, -, e6, e7⟩ := idx_facts t
  show (cfg1.win 3).cut (grid1.coords t) ((dat V c).after 3 t) = _
  rw [after_out]
  unfold outBlock
  rw [View.canon_unit_zero offZero]
  simp only [View.ld_unit_zero (S := S512x4096) offZero, View.ld_unit_zero (S := S1024x4096) offZero, View.ld_unit_zero (S := S1x1024) offZero]
  funext y
  obtain ⟨p, q, rfl⟩ : ∃ (p : Fin 512) (q : Fin 1024), y = ix2 p q := ⟨y 0, y 1, eq_ix2 y⟩
  have hr : 512 * t.val + p.val < 4096 := by have := p.isLt; omega
  have hemb : ((cfg1.win 3).blk t).view.emb (ix2 p q) = ix2 ⟨512 * t.val + p.val, hr⟩ q :=
    funext fun a => Fin.ext (by
      match a with
      | ⟨0, _⟩ => show win1_3.index t (0 : Fin 2) * 512 + 1 * p.val = 512 * t.val + p.val; omega
      | ⟨1, _⟩ => show win1_3.index t (1 : Fin 2) * 1024 + 1 * q.val = q.val; omega)
  show k1_pay1 (F := Ideal) (hBlock V c t) (sBlock V c t) (bBlock V c t) (ix2 p q) = outOf V c (((cfg1.win 3).blk t).view.emb (ix2 p q))
  rw [hemb]
  exact block_entry V c t p q hr

theorem mem_blk (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v12).slice (win1_3.rect t)).set ↔ _
  rw [View.set_slice_whole, Rect.mem_set_unit]
  exact Iff.rfl

theorem cover (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := N_1
  have hlt : (i 0).val / 512 < cfg1.N := by omega
  obtain ⟨-, -, -, -, -, -, e6, e7⟩ := idx_facts ⟨_, hlt⟩
  refine ⟨⟨_, hlt⟩, flush1_3 _, ?_⟩
  rw [mem_blk]
  intro a
  match a with
  | ⟨0, _⟩ => show win1_3.index ⟨_, hlt⟩ (0 : Fin 2) * 512 ≤ (i 0).val ∧ (i 0).val < win1_3.index ⟨_, hlt⟩ (0 : Fin 2) * 512 + 512; (try dsimp only at e6); omega
  | ⟨1, _⟩ => show win1_3.index ⟨_, hlt⟩ (1 : Fin 2) * 1024 ≤ (i 1).val ∧ (i 1).val < win1_3.index ⟨_, hlt⟩ (1 : Fin 2) * 1024 + 1024; (try dsimp only at e7); omega

/-- THE RESULT ARRAY after the launch. -/
theorem final (c : Dev nD) : (dat V c).arrAt 3 cfg1.N = outOf V c :=
  (dat V c).arrAt_eq_of_cover 3 (outOf V c) (fun t _ => flushed_out V c t) cover

end Cert.KernelIdeal.Output

end
-- ==== Proof.Ideal.Bridge.lean ====
/-
  The kernel's result array is the reference's, at the extended reals.
  Entering the hidden layer's launch the host has written: x unchanged (a change of float format is the identity), the
  sign matrix sign(w1) = select(w1 ≥ 0, 1, −1) — the same three literals and the same comparison as the reference's —,
  and b1 as a row. The launch leaves h(r, o) = max(Σ_k x(r, k) · sign(w1)(o, k) + b1(o), 0): the reference's relu stage,
  whose contraction is the same sum over 4096 terms (the kernel's, taken in four blocks of 1024, was regrouped in the
  accumulator's invariant; no finiteness is needed for that, only associativity and commutativity of the sum). The
  output layer then finds h, sign(w2) and b2 as a row, and leaves Σ_k h(r, k) · sign(w2)(o, k) + b2(o): the reference's
  last stage, read one operation at a time.
-/
import proofs.«174947_j72980084293793_2_alg».proof.Proof.Ideal.Run
import proofs.«174947_j72980084293793_2_alg».proof.Proof.Ideal.HiddenValue
import proofs.«174947_j72980084293793_2_alg».proof.Proof.Ideal.OutputValue
import proofs.«174947_j72980084293793_2_alg».proof.Proof.Gen.ReferenceIdeal.Read
import Idealize.ShloMosaic.Lib.StableHlo.Run
import Idealize.ShloMosaic.Lib.ValueLayout

set_option maxRecDepth 16384

noncomputable section

namespace Cert.KernelIdeal.Bridge

open Idealize.ShloMosaic Idealize.ShloMosaic.TcCoe Idealize.ShloMosaic.ValueIdx
open Idealize.SL Idealize.SL.Sem Idealize.ShloMosaic.StableHlo
open Cert.KernelIdeal Cert.KernelIdeal.Gen Cert.ReferenceIdeal.Read

variable (m : (ℓ : Loc nD τ sig) → Buf (Elt Ideal) ℓ) (c : Dev nD)

/-- The argument arrays on core `c`. -/
abbrev a0 : FVec Ideal S4096x4096 .f32 := m ((c : Thread nD τ).loc main_arg0)
abbrev a1 : FVec Ideal S4096x4096 .f32 := m ((c : Thread nD τ).loc main_arg1)
abbrev a2 : FVec Ideal S4096 .f32 := m ((c : Thread nD τ).loc main_arg2)
abbrev a3 : FVec Ideal S1024x4096 .f32 := m ((c : Thread nD τ).loc main_arg3)
abbrev a4 : FVec Ideal S1024 .f32 := m ((c : Thread nD τ).loc main_arg4)

/-- The sign matrix of a weight matrix, as both programs compute it. -/
abbrev signs1 (w : FVec Ideal S4096x4096 .f32) : FVec Ideal S4096x4096 .f32 :=
  select (cmpf .oge w (broadcastInDim S4096x4096 ![] bcast_S_S4096x4096 (constant S_ .f32 0x00000000#32)))
    (broadcastInDim S4096x4096 ![] bcast_S_S4096x4096 (constant S_ .f32 0x3F800000#32))
    (broadcastInDim S4096x4096 ![] bcast_S_S4096x4096 (constant S_ .f32 0xBF800000#32))
abbrev signs2 (w : FVec Ideal S1024x4096 .f32) : FVec Ideal S1024x4096 .f32 :=
  select (cmpf .oge w (broadcastInDim S1024x4096 ![] bcast_S_S1024x4096 (constant S_ .f32 0x00000000#32)))
    (broadcastInDim S1024x4096 ![] bcast_S_S1024x4096 (constant S_ .f32 0x3F800000#32))
    (broadcastInDim S1024x4096 ![] bcast_S_S1024x4096 (constant S_ .f32 0xBF800000#32))

/-! ## What the host stretches leave in the arrays the two launches read -/

theorem entry_x : Gen.V5 m c (Proc.devRef .tc main_v0) = (truncf .bf16 (a0 m c) bitsLt_bf16_f32 : FVec Ideal S4096x4096 .bf16) := by
  dsimp only [Gen.V5, Gen.V4, Gen.V3, Gen.V2, Gen.V1, Gen.V0]
  after_results <;> rfl

theorem entry_s1 : Gen.V5 m c (Proc.devRef .tc main_v4) = (truncf .bf16 (signs1 (a1 m c)) bitsLt_bf16_f32 : FVec Ideal S4096x4096 .bf16) := by
  dsimp only [Gen.V5, Gen.V4, Gen.V3, Gen.V2, Gen.V1, Gen.V0]
  after_results <;> rfl

theorem entry_b1 : Gen.V5 m c (Proc.devRef .tc main_v9) = (shapeCast S1x4096 (a2 m c) shapeCasts_S4096_S1x4096 : FVec Ideal S1x4096 .f32) := by
  dsimp only [Gen.V5, Gen.V4, Gen.V3, Gen.V2, Gen.V1, Gen.V0]
  after_results <;> rfl

theorem entry_s2 : Run.W6 m c (Proc.devRef .tc main_v8) = (truncf .bf16 (signs2 (a3 m c)) bitsLt_bf16_f32 : FVec Ideal S1024x4096 .bf16) := by
  rw [Run.W6_of_ne m c main_v8 (by decide)]
  dsimp only [Gen.V5, Gen.V4, Gen.V3, Gen.V2, Gen.V1, Gen.V0]
  after_results <;> rfl

theorem entry_b2 : Run.W6 m c (Proc.devRef .tc main_v10) = (shapeCast S1x1024 (a4 m c) shapeCasts_S1024_S1x1024 : FVec Ideal S1x1024 .f32) := by
  rw [Run.W6_of_ne m c main_v10 (by decide)]
  dsimp only [Gen.V5, Gen.V4, Gen.V3, Gen.V2, Gen.V1, Gen.V0]
  after_results <;> rfl

/-- The hidden layer's array as the output layer finds it. -/
theorem entry_h : Run.W6 m c (Proc.devRef .tc main_v11) = Hidden.hiddenOf (Run.E5 m) c :=
  (Run.W6_arr m c 3).trans (Hidden.final (Run.E5 m) c)

/-! ## The reference's operand indices are the coordinates -/

theorem lidx4 (r o k : Fin 4096) : lidx_main_v4 (ix2 r o) k = ix2 r k :=
  funext fun a => Fin.ext (by match a with | ⟨0, _⟩ => rfl | ⟨1, _⟩ => rfl)
theorem ridx4 (r o k : Fin 4096) : ridx_main_v4 (ix2 r o) k = ix2 o k :=
  funext fun a => Fin.ext (by match a with | ⟨0, _⟩ => rfl | ⟨1, _⟩ => rfl)
theorem lidx13 (r : Fin 4096) (o : Fin 1024) (k : Fin 4096) : lidx_main_v13 (ix2 r o) k = ix2 r k :=
  funext fun a => Fin.ext (by match a with | ⟨0, _⟩ => rfl | ⟨1, _⟩ => rfl)
theorem ridx13 (r : Fin 4096) (o : Fin 1024) (k : Fin 4096) : ridx_main_v13 (ix2 r o) k = ix2 o k :=
  funext fun a => Fin.ext (by match a with | ⟨0, _⟩ => rfl | ⟨1, _⟩ => rfl)
theorem bidx1 (r o : Fin 4096) : idx_main_v5 (idx_main_v6 (ix2 r o)) = ix1 o :=
  funext fun a => Fin.ext (by match a with | ⟨0, _⟩ => rfl)
theorem bidx2 (r : Fin 4096) (o : Fin 1024) : idx_main_v14 (idx_main_v15 (ix2 r o)) = ix1 o :=
  funext fun a => Fin.ext (by match a with | ⟨0, _⟩ => rfl)

/-! ## The hidden layer is the reference's relu stage -/

theorem hidden_entry (r o : Fin 4096) :
    Hidden.hiddenOf (Run.E5 m) c (ix2 r o) = val_main_v8 (F := Ideal) (a0 m c) (a1 m c) (a2 m c) (ix2 r o) := by
  rw [val_main_v8_apply, val_main_v7_apply, val_main_v4_apply, val_main_v6_apply, val_main_v5_apply,
    val_main_call1_v0_apply, val_main_call1_cst_apply, bidx1, Hidden.hiddenOf_ix2]
  have hx : Hidden.X (Run.E5 m) c = (truncf .bf16 (a0 m c) bitsLt_bf16_f32 : FVec Ideal S4096x4096 .bf16) := entry_x m c
  have hs : Hidden.S (Run.E5 m) c = (truncf .bf16 (signs1 (a1 m c)) bitsLt_bf16_f32 : FVec Ideal S4096x4096 .bf16) := entry_s1 m c
  have hb : Hidden.B (Run.E5 m) c = (shapeCast S1x4096 (a2 m c) shapeCasts_S4096_S1x4096 : FVec Ideal S1x4096 .f32) := entry_b1 m c
  rw [hx, hs, hb, shapeCast_a_1a_apply]
  show max _ _ = max (_ + _) _
  refine congrArg₂ max (congrArg₂ (· + ·) (Finset.sum_congr rfl fun k _ => ?_) rfl) rfl
  rw [lidx4, ridx4]
  rfl

/-! ## The result -/

/-- The output layer's final array is the reference's last stage of the argument arrays. -/
theorem result : (Output.dat (Run.E6 m) c).arrAt 3 cfg1.N
    = val_main_v16 (F := Ideal) (a0 m c) (a1 m c) (a2 m c) (a3 m c) (a4 m c) := by
  rw [Output.final]
  funext i
  obtain ⟨r, o, rfl⟩ : ∃ (r : Fin 4096) (o : Fin 1024), i = ix2 r o := ⟨i 0, i 1, eq_ix2 i⟩
  rw [val_main_v16_apply, val_main_v13_apply, val_main_v15_apply, val_main_v14_apply, bidx2, Output.outOf_ix2]
  have hh : Output.H (Run.E6 m) c = Hidden.hiddenOf (Run.E5 m) c := entry_h m c
  have hs : Output.S (Run.E6 m) c = (truncf .bf16 (signs2 (a3 m c)) bitsLt_bf16_f32 : FVec Ideal S1024x4096 .bf16) := entry_s2 m c
  have hb : Output.B (Run.E6 m) c = (shapeCast S1x1024 (a4 m c) shapeCasts_S1024_S1x1024 : FVec Ideal S1x1024 .f32) := entry_b2 m c
  rw [hh, hs, hb, shapeCast_a_1a_apply]
  show _ + _ = _ + _
  refine congrArg₂ (· + ·) (Finset.sum_congr rfl fun k _ => ?_) rfl
  rw [lidx13, ridx13, hidden_entry]
  rfl

end Cert.KernelIdeal.Bridge

end
-- ==== Proof.lean ====
/-
  A two-layer network with sign-binarized weights, out = relu(x · sign(w1)ᵀ + b1) · sign(w2)ᵀ + b2, as two launches —
  the hidden layer accumulated over four contraction tiles of 1024 in a scratch accumulator, the output layer in one
  product per row tile — against the same two contractions taken whole.

  Frames. Each program is run as its segments: five stretches of host operations, then the two launches. The hidden
  layer's body has three cases by the contraction tile (first: zero the accumulator and add; middle: add; last: add and
  emit the output block), each run whole; between points the launch's invariant names what the accumulator holds. The
  run ends with every buffer outside the launches' scoped memory at known contents: the arguments as launched.

  Values, at the extended reals. A change of float format is the identity and the matrix unit's product into a zero
  splat is the textbook sum, so the accumulator after tile k holds the running sum of the blocks 0, …, k of
  Σ_j x(r, j) · s(o, j), which after tile 3 is the whole sum (sums in an additive commutative monoid may be regrouped:
  no finiteness is used). The emitted block is then the reference's relu stage entry by entry, the sign matrices being
  the same select of the same comparison and the same three literals in both programs, and the output layer's block is
  the reference's last stage. Both runs therefore end with the reference's last stage of the argument arrays.

  The idealization rewrote no operation, so its conjunct is trivial.
-/
import proofs.«174947_j72980084293793_2_alg».proof.Defs
import proofs.«174947_j72980084293793_2_alg».proof.Proof.Gen.Kernel
import proofs.«174947_j72980084293793_2_alg».proof.Proof.Gen.KernelIdeal
import proofs.«174947_j72980084293793_2_alg».proof.Proof.Gen.ReferenceIdeal
import proofs.«174947_j72980084293793_2_alg».proof.Proof.Gen.Pre_finite_inputs
import proofs.«174947_j72980084293793_2_alg».proof.Proof.Gen.ReferenceIdeal.Run
import proofs.«174947_j72980084293793_2_alg».proof.Proof.Gen.ReferenceIdeal.Read
import proofs.«174947_j72980084293793_2_alg».proof.Proof.Bits.Run
import proofs.«174947_j72980084293793_2_alg».proof.Proof.Ideal.Run
import proofs.«174947_j72980084293793_2_alg».proof.Proof.Ideal.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Run.frame (F := Bits) m ρ

/-- So does its idealization. -/
theorem frame_ideal : Cert.frame_KernelIdeal := fun m ρ _ => Cert.KernelIdeal.Run.frame (F := Ideal) m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the reference's last stage of the argument arrays: the kernel's result array by the
    bridge, the reference's by its own run, the arguments' agreement rewritten. -/
theorem algebraic : Cert.algebraic_KernelIdeal_ReferenceIdeal := by
  intro m ρ m' ρ' _ hagree
  refine ⟨fun c => Cert.ReferenceIdeal.Read.val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨?_, ?_, ?_, ?_, ?_, ?_⟩) (Cert.KernelIdeal.Run.run (F := Ideal) m ρ)
    · exact (h c _ (Cert.KernelIdeal.Run.mem_uc Cert.KernelIdeal.main_v12 (by decide))).trans
        ((Cert.KernelIdeal.Run.W7_arr m c 3).trans (Cert.KernelIdeal.Bridge.result m c))
    · exact (h c _ (Cert.KernelIdeal.Run.mem_uc Cert.KernelIdeal.main_arg0 (by decide))).trans (Cert.KernelIdeal.Run.W7_main_arg0 m c)
    · exact (h c _ (Cert.KernelIdeal.Run.mem_uc Cert.KernelIdeal.main_arg1 (by decide))).trans (Cert.KernelIdeal.Run.W7_main_arg1 m c)
    · exact (h c _ (Cert.KernelIdeal.Run.mem_uc Cert.KernelIdeal.main_arg2 (by decide))).trans (Cert.KernelIdeal.Run.W7_main_arg2 m c)
    · exact (h c _ (Cert.KernelIdeal.Run.mem_uc Cert.KernelIdeal.main_arg3 (by decide))).trans (Cert.KernelIdeal.Run.W7_main_arg3 m c)
    · exact (h c _ (Cert.KernelIdeal.Run.mem_uc Cert.KernelIdeal.main_arg4 (by decide))).trans (Cert.KernelIdeal.Run.W7_main_arg4 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v16_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
